-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S64x512 : Shape := ⟨2, ![64, 512]⟩
abbrev S2048x1024 : Shape := ⟨2, ![2048, 1024]⟩
abbrev S1024x1024 : Shape := ⟨2, ![1024, 1024]⟩
abbrev S1x1024 : Shape := ⟨2, ![1, 1024]⟩
abbrev S8x128 : Shape := ⟨2, ![8, 128]⟩
abbrev S2048 : Shape := ⟨1, ![2048]⟩
abbrev S2048x1 : Shape := ⟨2, ![2048, 1]⟩
abbrev S1 : Shape := ⟨1, ![1]⟩
abbrev S1x1 : Shape := ⟨2, ![1, 1]⟩

abbrev nBuf : Space → Nat
  | .hbm => 100
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S16384x4096, .bf16⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S1x4096, .f32⟩
  | .hbm, ⟨56, _⟩ => ⟨S1x4096, .f32⟩
  | .hbm, ⟨57, _⟩ => ⟨S1x4096, .f32⟩
  | .hbm, ⟨58, _⟩ => ⟨S4096x4096, .bf16⟩
  | .hbm, ⟨59, _⟩ => ⟨S4096x4096, .bf16⟩
  | .hbm, ⟨60, _⟩ => ⟨S16384x4096, .f32⟩
  | .hbm, ⟨61, _⟩ => ⟨S64x512, .f32⟩
  | .hbm, ⟨62, _⟩ => ⟨S64x512, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1x4096, .f32⟩
  | .hbm, ⟨79, _⟩ => ⟨S1x4096, .f32⟩
  | .hbm, ⟨80, _⟩ => ⟨S1x4096, .f32⟩
  | .hbm, ⟨81, _⟩ => ⟨S1x4096, .f32⟩
  | .hbm, ⟨82, _⟩ => ⟨S1x4096, .f32⟩
  | .hbm, ⟨83, _⟩ => ⟨S16384x4096, .f32⟩
  | .hbm, ⟨84, _⟩ => ⟨S16384x4096, .f32⟩
  | .hbm, ⟨85, _⟩ => ⟨S16384x4096, .f32⟩
  | .hbm, ⟨86, _⟩ => ⟨S16384x4096, .f32⟩
  | .hbm, ⟨87, _⟩ => ⟨S16384x4096, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S16384x4096, .f32⟩
  | .hbm, ⟨92, _⟩ => ⟨S16384x4096, .f32⟩
  | .hbm, ⟨93, _⟩ => ⟨S_, .f32⟩
  | .hbm, ⟨94, _⟩ => ⟨S16384x4096, .f32⟩
  | .hbm, ⟨95, _⟩ => ⟨S16384x4096, .f32⟩
  | .hbm, ⟨96, _⟩ => ⟨S16384x4096, .f32⟩
  | .hbm, ⟨97, _⟩ => ⟨S16384x4096, .f32⟩
  | .hbm, ⟨98, _⟩ => ⟨S16384x4096, .f32⟩
  | .hbm, ⟨99, _⟩ => ⟨S16384x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S2048x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_cst_6 : Ref sig .tc := ⟨.hbm, 27, rfl⟩
abbrev main_v12 : Ref sig .tc := ⟨.hbm, 28, rfl⟩
abbrev main_v13 : Ref sig .tc := ⟨.hbm, 29, rfl⟩
abbrev main_cst_7 : Ref sig .tc := ⟨.hbm, 30, rfl⟩
abbrev main_v14 : Ref sig .tc := ⟨.hbm, 31, rfl⟩
abbrev main_v15 : Ref sig .tc := ⟨.hbm, 32, rfl⟩
abbrev main_cst_8 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_9 : Ref sig .tc := ⟨.hbm, 41, rfl⟩
abbrev main_cst_10 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35_0 : Ref sig .tc := ⟨.hbm, 60, rfl⟩
abbrev main_v35_1 : Ref sig .tc := ⟨.hbm, 61, rfl⟩
abbrev main_v35_2 : Ref sig .tc := ⟨.hbm, 62, rfl⟩
abbrev main_cst_11 : Ref sig .tc := ⟨.hbm, 63, rfl⟩
abbrev main_v36 : Ref sig .tc := ⟨.hbm, 64, rfl⟩
abbrev main_cst_12 : Ref sig .tc := ⟨.hbm, 65, rfl⟩
abbrev main_v37 : Ref sig .tc := ⟨.hbm, 66, rfl⟩
abbrev main_cst_13 : Ref sig .tc := ⟨.hbm, 67, rfl⟩
abbrev main_v38 : Ref sig .tc := ⟨.hbm, 68, rfl⟩
abbrev main_cst_14 : Ref sig .tc := ⟨.hbm, 69, rfl⟩
abbrev main_v39 : Ref sig .tc := ⟨.hbm, 70, rfl⟩
abbrev main_v40 : Ref sig .tc := ⟨.hbm, 71, rfl⟩
abbrev main_cst_15 : Ref sig .tc := ⟨.hbm, 72, rfl⟩
abbrev main_v41 : Ref sig .tc := ⟨.hbm, 73, rfl⟩
abbrev main_v42 : Ref sig .tc := ⟨.hbm, 74, rfl⟩
abbrev main_cst_16 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_17 : Ref sig .tc := ⟨.hbm, 88, rfl⟩
abbrev main_cst_18 : Ref sig .tc := ⟨.hbm, 89, rfl⟩
abbrev main_call8_v0 : Ref sig .tc := ⟨.hbm, 90, rfl⟩
abbrev main_call8_v1 : Ref sig .tc := ⟨.hbm, 91, rfl⟩
abbrev main_call8_v2 : Ref sig .tc := ⟨.hbm, 92, rfl⟩
abbrev main_call8_v3 : Ref sig .tc := ⟨.hbm, 93, rfl⟩
abbrev main_call8_v4 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S16384x4096_S_d0_1 : S16384x4096.ReducesTo [0, 1] S_
  bcast_S_S16384x4096 : S_.BroadcastsInDim S16384x4096 (![] : Fin 0 → Fin S16384x4096.rank)
  bitsLt_bf16_f32 : FTy.bits .bf16 < FTy.bits .f32
  bcast_S4096_S1x4096_1 : S4096.BroadcastsInDim S1x4096 (![1] : Fin 1 → Fin S1x4096.rank)
  bcast_S_S1x4096 : S_.BroadcastsInDim S1x4096 (![] : Fin 0 → Fin S1x4096.rank)
  transposes_S4096x4096_S4096x4096_1_0 : S4096x4096.Transposes [1, 0] S4096x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  reduces_S2048x1024_S2048 : S2048x1024.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S64x512_S_d0_1 : S64x512.ReducesTo [0, 1] S_
  bcast_S1x4096_S16384x4096_0_1 : S1x4096.BroadcastsInDim S16384x4096 (![0, 1] : Fin 2 → Fin S16384x4096.rank)
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x4096.size a
  hwx0_0 : ∀ i : grid0.Coords, EltTy.bits .bf16 = 32 ∨ (Rect.block (s := S16384x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x4096.size a
  hwx0_3 : ∀ i : grid0.Coords, EltTy.bits .f32 = 32 ∨ (Rect.block (s := S16384x4096) S2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S64x512.size a
  hwx0_4 : ∀ i : grid0.Coords, EltTy.bits .f32 = 32 ∨ (Rect.block (s := S64x512) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S64x512.size a
  hwx0_5 : ∀ i : grid0.Coords, EltTy.bits .f32 = 32 ∨ (Rect.block (s := S64x512) S8x128.size (cc0_transform_5 i) (hinb0_5 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v26) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35_0) S2048x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35_1) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v35_2) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 97
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S16384x4096, .f32⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S1x4096, .f32⟩
  | .hbm, ⟨56, _⟩ => ⟨S1x4096, .f32⟩
  | .hbm, ⟨57, _⟩ => ⟨S1x4096, .f32⟩
  | .hbm, ⟨58, _⟩ => ⟨S16384x4096, .f32⟩
  | .hbm, ⟨59, _⟩ => ⟨S16384x4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S16384x4096, .f32⟩
  | .hbm, ⟨76, _⟩ => ⟨S16384x4096, .f32⟩
  | .hbm, ⟨77, _⟩ => ⟨S16384x4096, .f32⟩
  | .hbm, ⟨78, _⟩ => ⟨S16384x4096, .f32⟩
  | .hbm, ⟨79, _⟩ => ⟨S16384x4096, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S16384x4096, .f32⟩
  | .hbm, ⟨84, _⟩ => ⟨S16384x4096, .f32⟩
  | .hbm, ⟨85, _⟩ => ⟨S_, .f32⟩
  | .hbm, ⟨86, _⟩ => ⟨S16384x4096, .f32⟩
  | .hbm, ⟨87, _⟩ => ⟨S16384x4096, .f32⟩
  | .hbm, ⟨88, _⟩ => ⟨S1x4096, .f32⟩
  | .hbm, ⟨89, _⟩ => ⟨S1x4096, .f32⟩
  | .hbm, ⟨90, _⟩ => ⟨S1x4096, .f32⟩
  | .hbm, ⟨91, _⟩ => ⟨S1x4096, .f32⟩
  | .hbm, ⟨92, _⟩ => ⟨S1x4096, .f32⟩
  | .hbm, ⟨93, _⟩ => ⟨S16384x4096, .f32⟩
  | .hbm, ⟨94, _⟩ => ⟨S16384x4096, .f32⟩
  | .hbm, ⟨95, _⟩ => ⟨S16384x4096, .f32⟩
  | .hbm, ⟨96, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_cst_6 : Ref sig .tc := ⟨.hbm, 27, rfl⟩
abbrev main_v12 : Ref sig .tc := ⟨.hbm, 28, rfl⟩
abbrev main_v13 : Ref sig .tc := ⟨.hbm, 29, rfl⟩
abbrev main_cst_7 : Ref sig .tc := ⟨.hbm, 30, rfl⟩
abbrev main_v14 : Ref sig .tc := ⟨.hbm, 31, rfl⟩
abbrev main_v15 : Ref sig .tc := ⟨.hbm, 32, rfl⟩
abbrev main_cst_8 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_9 : Ref sig .tc := ⟨.hbm, 41, rfl⟩
abbrev main_cst_10 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_cst_12 : Ref sig .tc := ⟨.hbm, 62, rfl⟩
abbrev main_v36 : Ref sig .tc := ⟨.hbm, 63, rfl⟩
abbrev main_cst_13 : Ref sig .tc := ⟨.hbm, 64, rfl⟩
abbrev main_v37 : Ref sig .tc := ⟨.hbm, 65, rfl⟩
abbrev main_cst_14 : Ref sig .tc := ⟨.hbm, 66, rfl⟩
abbrev main_v38 : Ref sig .tc := ⟨.hbm, 67, rfl⟩
abbrev main_v39 : Ref sig .tc := ⟨.hbm, 68, rfl⟩
abbrev main_cst_15 : Ref sig .tc := ⟨.hbm, 69, rfl⟩
abbrev main_v40 : Ref sig .tc := ⟨.hbm, 70, rfl⟩
abbrev main_v41 : Ref sig .tc := ⟨.hbm, 71, rfl⟩
abbrev main_cst_16 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_17 : Ref sig .tc := ⟨.hbm, 80, rfl⟩
abbrev main_cst_18 : Ref sig .tc := ⟨.hbm, 81, rfl⟩
abbrev main_call8_v0 : Ref sig .tc := ⟨.hbm, 82, rfl⟩
abbrev main_call8_v1 : Ref sig .tc := ⟨.hbm, 83, rfl⟩
abbrev main_call8_v2 : Ref sig .tc := ⟨.hbm, 84, rfl⟩
abbrev main_call8_v3 : Ref sig .tc := ⟨.hbm, 85, rfl⟩
abbrev main_call8_v4 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S16384x4096_S_d0_1 : S16384x4096.ReducesTo [0, 1] S_
  bcast_S_S16384x4096 : S_.BroadcastsInDim S16384x4096 (![] : Fin 0 → Fin S16384x4096.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S16384x4096_0_1 : S1x4096.BroadcastsInDim S16384x4096 (![0, 1] : Fin 2 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.TilePieces.lean ====
/-
  What each kind of grid point leaves behind, as pure terms of what it found.

  The body has three kinds of point along the contraction axis k of a tile:
    * the first (k = 0): the accumulator is reset to the zero block and the first product is added;
    * the middle ones (k = 1, 2): the product of the point's two blocks is added to what the point before left;
    * the last (k = 3): the last product is added, and the finished accumulator plus the bias row is stored as
      the output tile, together with the tile's least and greatest entries spread over the two table blocks.
  Each store covers its whole buffer, so what a buffer holds afterwards is the last store's value, and a load
  that follows a store of the same buffer reads that store's value. Stated at any float instance: nothing here
  depends on what the arithmetic means.
-/
import proofs.«140985_j16578573762822_2_alg».proof.Proof.Gen.KernelIdeal.Frame
import Idealize.ShloMosaic.Lib.Pipeline.Value
import Idealize.ShloMosaic.Lib.Tactic

set_option maxRecDepth 16384

noncomputable section

namespace Cert.KernelIdeal.TileValue

open Cert.KernelIdeal Cert.KernelIdeal.Gen Idealize.ShloMosaic Idealize.ShloMosaic.TcCoe Idealize.ShloMosaic.Tactic
open Idealize.SL.Sem

variable {F : FTy → Type} [FloatOps F]

theorem hz : (![0, 0] : Fin 2 → Nat) = fun _ => 0 := funext fun a => by fin_cases a <;> rfl

/-- First point of a tile: the accumulator ends at the zero block plus the first product. -/
theorem scratch_first (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S2048x1024 .f32) (harg9 : arg9.IsWhole) (hc0 : cond0_0 i) (hc1 : ¬cond0_1 i)
    (x0 : Vec F S2048x1024 .bf16) (x1 : Vec F S1024x1024 .bf16) (x2 : Vec F S1x1024 .f32) :
    sout0_A_0 c i arg3 harg3 arg4 harg4 arg5 harg5 arg6 harg6 arg7 harg7 arg8 harg8 arg9 harg9 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg9.read_unread,
    View.ld_unit_zero (S := S2048x1024) hz, View.ld_unit_zero (S := S1024x1024) hz, View.ld_unit_zero (S := S1x1024) hz]

/-- A middle point: the accumulator ends at what the point before left plus this point's product. -/
theorem scratch_middle (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S2048x1024 .f32) (harg9 : arg9.IsWhole) (hc0 : ¬cond0_0 i) (hc1 : ¬cond0_1 i)
    (x0 : Vec F S2048x1024 .bf16) (x1 : Vec F S1024x1024 .bf16) (x2 : Vec F S1x1024 .f32) (xs0 : Vec F S2048x1024 .f32) :
    sout0_B_0 c i arg3 harg3 arg4 harg4 arg5 harg5 arg6 harg6 arg7 harg7 arg8 harg8 arg9 harg9 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 arg8 harg8 arg9 harg9 hc0 hc1 x0 x1 x2 xs0)]
  unfold kernelRun0_B
  dsimp only
  rw [View.canon_unit_zero hz]
  simp only [View.readAt_eq_ld, harg3.read_unread, harg4.read_unread, harg5.read_unread, harg9.read_unread,
    View.ld_unit_zero (S := S2048x1024) hz, View.ld_unit_zero (S := S1024x1024) hz, View.ld_unit_zero (S := S1x1024) hz]

/-- Last point of a tile: the accumulator ends at what the point before left plus the last product, -/
theorem scratch_last (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S2048x1024 .f32) (harg9 : arg9.IsWhole) (hc0 : ¬cond0_0 i) (hc1 : cond0_1 i)
    (x0 : Vec F S2048x1024 .bf16) (x1 : Vec F S1024x1024 .bf16) (x2 : Vec F S1x1024 .f32) (xs0 : Vec F S2048x1024 .f32) :
    sout0_C_0 c i arg3 harg3 arg4 harg4 arg5 harg5 arg6 harg6 arg7 harg7 arg8 harg8 arg9 harg9 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 arg8 harg8 arg9 harg9 hc0 hc1 x0 x1 x2 xs0)]
  unfold kernelRun0_C
  dsimp only
  sl_unfold_words
  rw [View.canon_unit_zero hz]
  simp only [View.readAt_eq_ld, harg3.read_unread, harg4.read_unread, harg5.read_unread, harg9.read_unread,
    View.ld_unit_zero (S := S2048x1024) hz, View.ld_unit_zero (S := S1024x1024) hz, View.ld_unit_zero (S := S1x1024) hz]

/-- the output tile at that accumulator plus the bias row, -/
theorem tile_last (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S2048x1024 .f32) (harg9 : arg9.IsWhole) (hc0 : ¬cond0_0 i) (hc1 : cond0_1 i)
    (x0 : Vec F S2048x1024 .bf16) (x1 : Vec F S1024x1024 .bf16) (x2 : Vec F S1x1024 .f32) (xs0 : Vec F S2048x1024 .f32) :
    out0_C_3 c i arg3 harg3 arg4 harg4 arg5 harg5 arg6 harg6 arg7 harg7 arg8 harg8 arg9 harg9 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 arg8 harg8 arg9 harg9 hc0 hc1 x0 x1 x2 xs0)]
  unfold kernelRun0_C
  dsimp only
  sl_unfold_words
  rw [View.canon_unit_zero hz, View.readCov_unit_zero (S := S2048x1024) _ hz]
  simp only [View.readAt_eq_ld, harg3.read_unread, harg4.read_unread, harg5.read_unread, harg9.read_unread,
    View.ld_unit_zero (S := S2048x1024) hz, View.ld_unit_zero (S := S1024x1024) hz, View.ld_unit_zero (S := S1x1024) hz]

/-- the minimum table block at the tile's least entry, -/
theorem minBlock_last (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S2048x1024 .f32) (harg9 : arg9.IsWhole) (hc0 : ¬cond0_0 i) (hc1 : cond0_1 i)
    (x0 : Vec F S2048x1024 .bf16) (x1 : Vec F S1024x1024 .bf16) (x2 : Vec F S1x1024 .f32) (xs0 : Vec F S2048x1024 .f32) :
    out0_C_4 c i arg3 harg3 arg4 harg4 arg5 harg5 arg6 harg6 arg7 harg7 arg8 harg8 arg9 harg9 hc0 hc1 x0 x1 x2 xs0 = k0_pay4 (k0_pay2 xs0 x0 x1) x2 := by
  unfold out0_C_4
  rw [View.read_writes_eq_canon _ _ _ (cover0_C_4 c i arg3 harg3 arg4 harg4 arg5 harg5 arg6 harg6 arg7 harg7 arg8 harg8 arg9 harg9 hc0 hc1 x0 x1 x2 xs0)]
  unfold kernelRun0_C
  dsimp only
  sl_unfold_words
  rw [View.canon_unit_zero hz, View.readCov_unit_zero (S := S2048x1024) _ hz]
  simp only [View.readAt_eq_ld, harg3.read_unread, harg4.read_unread, harg5.read_unread, harg9.read_unread,
    View.ld_unit_zero (S := S2048x1024) hz, View.ld_unit_zero (S := S1024x1024) hz, View.ld_unit_zero (S := S1x1024) hz]

/-- and the maximum table block at its greatest entry. -/
theorem maxBlock_last (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S2048x1024 .f32) (harg9 : arg9.IsWhole) (hc0 : ¬cond0_0 i) (hc1 : cond0_1 i)
    (x0 : Vec F S2048x1024 .bf16) (x1 : Vec F S1024x1024 .bf16) (x2 : Vec F S1x1024 .f32) (xs0 : Vec F S2048x1024 .f32) :
    out0_C_5 c i arg3 harg3 arg4 harg4 arg5 harg5 arg6 harg6 arg7 harg7 arg8 harg8 arg9 harg9 hc0 hc1 x0 x1 x2 xs0 = k0_pay5 (k0_pay2 xs0 x0 x1) x2 := by
  unfold out0_C_5
  rw [View.read_writes_eq_canon _ _ _ (cover0_C_5 c i arg3 harg3 arg4 harg4 arg5 harg5 arg6 harg6 arg7 harg7 arg8 harg8 arg9 harg9 hc0 hc1 x0 x1 x2 xs0)]
  unfold kernelRun0_C
  dsimp only
  sl_unfold_words
  rw [View.canon_unit_zero hz, View.readCov_unit_zero (S := S2048x1024) _ hz]
  simp only [View.readAt_eq_ld, harg3.read_unread, harg4.read_unread, harg5.read_unread, harg9.read_unread,
    View.ld_unit_zero (S := S2048x1024) hz, View.ld_unit_zero (S := S1024x1024) hz, View.ld_unit_zero (S := S1x1024) hz]

end Cert.KernelIdeal.TileValue

end
-- ==== Proof.TileFold.lean ====
/-
  The accumulator along a tile's four contraction steps, and what the tile's last point stores.

  Grid points are numbered row-major over (i, j, k) with k fastest, so the four points 4q, 4q+1, 4q+2, 4q+3 are
  the four contraction steps of ONE tile (the q-th, counting tiles row-major over (i, j)). The accumulator the
  kernel carries between points is reset at 4q and stepped at the three points after it; at 4q+3 it has been
  stepped four times from the zero block, once per contraction block, in order. At that last point the output
  tile, the minimum block and the maximum block are the three epilogue terms of that finished accumulator and the
  tile's bias block. Stated at any float instance.
-/
import proofs.«140985_j16578573762822_2_alg».proof.Proof.TilePieces

set_option maxRecDepth 16384

noncomputable section

namespace Cert.KernelIdeal.TileValue

open Cert.KernelIdeal Cert.KernelIdeal.Gen Idealize.ShloMosaic Idealize.ShloMosaic.TcCoe
open Idealize.SL.Sem

variable {F : FTy → Type} [FloatOps F]
variable (m : (ℓ : Loc nD τ sig) → Buf (Elt F) ℓ)

/-- At a tile's first point the accumulator ends at the zero block stepped once. -/
theorem acc_first (c : Dev nD) (t : Fin cfg0.N) (h0 : t.val % 4 = 0) :
    (outsAt0 m c t.val t.isLt).2.2.2 = k0_pay2 (k0_pay1 (F := F)) (iblk m c 0 t) (iblk m c 1 t) := by
  have h1 : ¬t.val % 4 = 3 := by omega
  rw [outsAt0_A m c t h0 h1]
  dsimp only
  exact scratch_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t)

/-- At every other point it ends at what the point before left, stepped once. -/
theorem acc_next (c : Dev nD) (t : Fin cfg0.N) (h0 : ¬t.val % 4 = 0) :
    (outsAt0 m c t.val t.isLt).2.2.2 = k0_pay2 ((outsAt0 m c (t.val - 1) (Nat.lt_of_le_of_lt (Nat.sub_le _ _) t.isLt)).2.2.2) (iblk m c 0 t) (iblk m c 1 t) := by
  by_cases h3 : t.val % 4 = 3
  · rw [outsAt0_C m c t h0 h3]
    dsimp only
    exact scratch_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) ((outsAt0 m c (t.val - 1) (Nat.lt_of_le_of_lt (Nat.sub_le _ _) t.isLt)).2.2.2)
  · rw [outsAt0_B m c t h0 h3]
    dsimp only
    exact scratch_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h3 ((hcond0_1 t).mp h)) (iblk m c 0 t) (iblk m c 1 t) (iblk m c 2 t) ((outsAt0 m c (t.val - 1) (Nat.lt_of_le_of_lt (Nat.sub_le _ _) t.isLt)).2.2.2)

/-- So at the last point of the q-th tile it is the zero block stepped through the tile's four contraction blocks. -/
theorem acc_tile (c : Dev nD) (q : ℕ) (h0 : 4 * q + 0 < cfg0.N) (h1 : 4 * q + 1 < cfg0.N) (h2 : 4 * q + 2 < cfg0.N)
    (h3 : 4 * q + 3 < cfg0.N) :
    (outsAt0 m c (4 * q + 3) h3).2.2.2
      = k0_pay2 (k0_pay2 (k0_pay2 (k0_pay2 (k0_pay1 (F := F))
          (iblk m c 0 ⟨4 * q + 0, h0⟩) (iblk m c 1 ⟨4 * q + 0, h0⟩))
          (iblk m c 0 ⟨4 * q + 1, h1⟩) (iblk m c 1 ⟨4 * q + 1, h1⟩))
          (iblk m c 0 ⟨4 * q + 2, h2⟩) (iblk m c 1 ⟨4 * q + 2, h2⟩))
          (iblk m c 0 ⟨4 * q + 3, h3⟩) (iblk m c 1 ⟨4 * q + 3, h3⟩) :=
  (Pipeline.eq_accAt (fun n h => (outsAt0 m c n h).2.2.2) 4
    (fun n h => k0_pay2 (k0_pay1 (F := F)) (iblk m c 0 ⟨n, h⟩) (iblk m c 1 ⟨n, h⟩))
    (fun n h acc => k0_pay2 acc (iblk m c 0 ⟨n, h⟩) (iblk m c 1 ⟨n, h⟩))
    (fun n h hm => acc_first m c ⟨n, h⟩ hm) (fun n h hm => acc_next m c ⟨n + 1, h⟩ hm) q 3 (by decide) h3).trans rfl

/-- At a tile's last point the output tile is the finished accumulator plus the tile's bias block, -/
theorem tile_at (c : Dev nD) (t : Fin cfg0.N) (h3 : t.val % 4 = 3) :
    (outsAt0 m c t.val t.isLt).1 = k0_pay3 ((outsAt0 m c t.val t.isLt).2.2.2) (iblk m c 2 t) := by
  have h0 : ¬t.val % 4 = 0 := by omega
  rw [outsAt0_C m c t h0 h3]
  dsimp only
  rw [tile_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) ((outsAt0 m c (t.val - 1) (Nat.lt_of_le_of_lt (Nat.sub_le _ _) t.isLt)).2.2.2), scratch_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) ((outsAt0 m c (t.val - 1) (Nat.lt_of_le_of_lt (Nat.sub_le _ _) t.isLt)).2.2.2)]

/-- the minimum block the tile's least entry, -/
theorem minBlock_at (c : Dev nD) (t : Fin cfg0.N) (h3 : t.val % 4 = 3) :
    (outsAt0 m c t.val t.isLt).2.1 = k0_pay4 ((outsAt0 m c t.val t.isLt).2.2.2) (iblk m c 2 t) := by
  have h0 : ¬t.val % 4 = 0 := by omega
  rw [outsAt0_C m c t h0 h3]
  dsimp only
  rw [minBlock_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) ((outsAt0 m c (t.val - 1) (Nat.lt_of_le_of_lt (Nat.sub_le _ _) t.isLt)).2.2.2), scratch_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) ((outsAt0 m c (t.val - 1) (Nat.lt_of_le_of_lt (Nat.sub_le _ _) t.isLt)).2.2.2)]

/-- and the maximum block its greatest entry. -/
theorem maxBlock_at (c : Dev nD) (t : Fin cfg0.N) (h3 : t.val % 4 = 3) :
    (outsAt0 m c t.val t.isLt).2.2.1 = k0_pay5 ((outsAt0 m c t.val t.isLt).2.2.2) (iblk m c 2 t) := by
  have h0 : ¬t.val % 4 = 0 := by omega
  rw [outsAt0_C m c t h0 h3]
  dsimp only
  rw [maxBlock_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) ((outsAt0 m c (t.val - 1) (Nat.lt_of_le_of_lt (Nat.sub_le _ _) t.isLt)).2.2.2), scratch_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) ((outsAt0 m c (t.val - 1) (Nat.lt_of_le_of_lt (Nat.sub_le _ _) t.isLt)).2.2.2)]

end Cert.KernelIdeal.TileValue

end
-- ==== Proof.TileBlocks.lean ====
/-
  Which entries of the arrays a grid point's blocks are.

  Point t of the 8 × 4 × 4 grid, numbered row-major with the contraction index fastest, is
  (i, j, k) = (t / 16, t / 4 mod 4, t mod 4). Its activation block is rows 2048·i … of columns 1024·k …; its weight
  block is rows 1024·k … of columns 1024·j … (of the transposed weights); its bias block is columns 1024·j … of the
  one bias row; its output tile is rows 2048·i …, columns 1024·j …; and its two table blocks are rows 8·i …,
  columns 128·j … of the [64, 512] tables. The index maps are decided once over the 128 points; a block entry is then
  the array entry at block index × block extent + the coordinate inside the block, on each axis.
-/
import proofs.«140985_j16578573762822_2_alg».proof.Proof.Gen.KernelIdeal.Frame
import Idealize.ShloMosaic.Lib.ValueIdx
import Idealize.ShloMosaic.Lib.Pipeline.Value

set_option maxRecDepth 16384

noncomputable section

namespace Cert.KernelIdeal.TileValue

open Cert.KernelIdeal Cert.KernelIdeal.Gen Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The six index maps in closed form, decided over the grid. -/
theorem block_index : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4
    ∧ win0_4.index t (0 : Fin 2) = t.val / 16 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

/-- Entry (r, k) of point t's activation block is entry (2048·(t/16) + r, 1024·(t mod 4) + k) of the activation array. -/
theorem actBlock_apply (c : Dev nD) (t : Fin cfg0.N) (r : Fin 2048) (k : Fin 1024) (R : Fin 16384) (K : Fin 4096)
    (hR : R.val = 2048 * (t.val / 16) + r.val) (hK : K.val = 1024 * (t.val % 4) + k.val) :
    (iblk m c 0 t : Vec F S2048x1024 .bf16) (ix2 r k) = (V m c main_v26 : S16384x4096.Idx → F .bf16) (ix2 R K) := by
  unfold iblk
  rw [View.read_apply]
  show V m c main_v26 _ = V m c main_v26 _
  refine congrArg (V m c main_v26) (funext fun a => Fin.ext ?_)
  obtain ⟨e0, e1, -⟩ := block_index t
  match a with
  | ⟨0, _⟩ => show win0_0.index t (0 : Fin 2) * 2048 + 1 * r.val = R.val; omega
  | ⟨1, _⟩ => show win0_0.index t (1 : Fin 2) * 1024 + 1 * k.val = K.val; omega

/-- Entry (k, q) of point t's weight block is entry (1024·(t mod 4) + k, 1024·(t/4 mod 4) + q) of the weight array. -/
theorem wtBlock_apply (c : Dev nD) (t : Fin cfg0.N) (k : Fin 1024) (q : Fin 1024) (K : Fin 4096) (Q : Fin 4096)
    (hK : K.val = 1024 * (t.val % 4) + k.val) (hQ : Q.val = 1024 * (t.val / 4 % 4) + q.val) :
    (iblk m c 1 t : Vec F S1024x1024 .bf16) (ix2 k q) = (V m c main_v34 : S4096x4096.Idx → F .bf16) (ix2 K Q) := by
  unfold iblk
  rw [View.read_apply]
  show V m c main_v34 _ = V m c main_v34 _
  refine congrArg (V m c main_v34) (funext fun a => Fin.ext ?_)
  obtain ⟨-, -, e0, e1, -⟩ := block_index t
  match a with
  | ⟨0, _⟩ => show win0_1.index t (0 : Fin 2) * 1024 + 1 * k.val = K.val; omega
  | ⟨1, _⟩ => show win0_1.index t (1 : Fin 2) * 1024 + 1 * q.val = Q.val; omega

/-- Entry (0, q) of point t's bias block is entry (0, 1024·(t/4 mod 4) + q) of the bias row. -/
theorem biasBlock_apply (c : Dev nD) (t : Fin cfg0.N) (q : Fin 1024) (Q : Fin 4096)
    (hQ : Q.val = 1024 * (t.val / 4 % 4) + q.val) :
    (iblk m c 2 t : Vec F S1x1024 .f32) (ix2 (0 : Fin 1) q) = (V m c main_v32 : S1x4096.Idx → F .f32) (ix2 (0 : Fin 1) Q) := by
  unfold iblk
  rw [View.read_apply]
  show V m c main_v32 _ = V m c main_v32 _
  refine congrArg (V m c main_v32) (funext fun a => Fin.ext ?_)
  obtain ⟨-, -, -, -, e0, e1, -⟩ := block_index t
  match a with
  | ⟨0, _⟩ => show win0_2.index t (0 : Fin 2) * 1 + 1 * 0 = 0; omega
  | ⟨1, _⟩ => show win0_2.index t (1 : Fin 2) * 1024 + 1 * q.val = Q.val; omega

end Cert.KernelIdeal.TileValue

end
-- ==== Proof.LibFoldBounds.lean ====
/-
  Minimum and maximum reductions over the extended reals, read by their bounds.

  A fold of `min` from +∞ over a finite family is the family's infimum, and the infimum is the one value whose
  lower bounds are exactly the common lower bounds of the family: `c ≤ inf ↔ ∀ i, c ≤ xᵢ`. Dually for `max` from
  -∞. Stated this way a reduction never has to be computed or re-ordered: two reductions are equal as soon as
  they have the same lower (upper) bounds (`eq_of_forall_le_iff`, `eq_of_forall_ge_iff`), whatever the shapes
  and however many axes each reduces at once. The lemmas cover a host reduction (any set of axes, into any
  shape, rank zero included) and a vector reduction inside a kernel, generic in the shapes and the float format.
-/
import Idealize.ShloMosaic.PureOps.Ideal
import Idealize.ShloMosaic.PureOps.Ideal.Laws
import Idealize.ShloMosaic.PureOps.Reduce

noncomputable section

namespace Cert.FoldBounds

open Idealize.ShloMosaic

/-- The f32 word of +∞ is the top of the extended reals, -/
theorem posInf_f32 : Ideal.ofBits .f32 0x7F800000#32 = (⊤ : EReal) := by simp [Ideal.ofBits, Ideal.ieee]

/-- and the word of -∞ its bottom. -/
theorem negInf_f32 : Ideal.ofBits .f32 0xFF800000#32 = (⊥ : EReal) := by simp [Ideal.ofBits, Ideal.ieee]

variable {s t u : Shape} {axes : List (Fin s.rank)} {φ : FTy}

/-- A host minimum-reduction from +∞, at result index `j`: its lower bounds are the common lower bounds of the
    operand's entries that reduce to `j`. -/
theorem le_hostReduce_min (x : s.Idx → Ideal φ) (init : u.Idx → Ideal φ) (h : s.ReducesTo axes t) (hu : 0 < u.numel)
    (hinit : init (Shape.Idx.first hu) = (⊤ : EReal)) (j : t.Idx) (c : EReal) :
    c ≤ Host.reduce (FloatOps.minimumf (F := Ideal) (φ := φ)) x init h hu j ↔ ∀ i, h.drop i = j → c ≤ x i := by
  rw [Host.reduce_eq_fold, hinit]
  show c ≤ Finset.fold min (⊤ : EReal) x _ ↔ _
  rw [Finset.le_fold_min]
  simp only [le_top, true_and, Finset.mem_filter, Finset.mem_univ]

/-- A host maximum-reduction from -∞, at result index `j`: its upper bounds are the common upper bounds of the
    operand's entries that reduce to `j`. -/
theorem hostReduce_max_le (x : s.Idx → Ideal φ) (init : u.Idx → Ideal φ) (h : s.ReducesTo axes t) (hu : 0 < u.numel)
    (hinit : init (Shape.Idx.first hu) = (⊥ : EReal)) (j : t.Idx) (c : EReal) :
    Host.reduce (FloatOps.maximumf (F := Ideal) (φ := φ)) x init h hu j ≤ c ↔ ∀ i, h.drop i = j → x i ≤ c := by
  rw [Host.reduce_eq_fold, hinit]
  show Finset.fold max (⊥ : EReal) x _ ≤ c ↔ _
  rw [Finset.fold_max_le]
  simp only [bot_le, true_and, Finset.mem_filter, Finset.mem_univ]

/-- A kernel's vector minimum-reduction whose accumulator word reads +∞, at result index `j`. -/
theorem le_multiReduction_min (src : FVec Ideal s φ) (acc : BitVec φ.bits) (h : s.Reduces axes t)
    (hφ : FKind.Formats φ) (hacc : acc = FKind.minimumf.neutral φ hφ) (htop : Ideal.ofBits φ acc = (⊤ : EReal))
    (j : t.Idx) (c : EReal) :
    c ≤ multiReduction (F := Ideal) .minimumf axes t src acc h hφ hacc j ↔ ∀ i, h.drop i = j → c ≤ src i := by
  rw [multiReduction_minimumf_eq_fold, Ideal.ofBits_def, htop]
  show c ≤ Finset.fold min (⊤ : EReal) src _ ↔ _
  rw [Finset.le_fold_min]
  simp only [le_top, true_and, Finset.mem_filter, Finset.mem_univ]

/-- A kernel's vector maximum-reduction whose accumulator word reads -∞, at result index `j`. -/
theorem multiReduction_max_le (src : FVec Ideal s φ) (acc : BitVec φ.bits) (h : s.Reduces axes t)
    (hφ : FKind.Formats φ) (hacc : acc = FKind.maximumf.neutral φ hφ) (hbot : Ideal.ofBits φ acc = (⊥ : EReal))
    (j : t.Idx) (c : EReal) :
    multiReduction (F := Ideal) .maximumf axes t src acc h hφ hacc j ≤ c ↔ ∀ i, h.drop i = j → src i ≤ c := by
  rw [multiReduction_maximumf_eq_fold, Ideal.ofBits_def, hbot]
  show Finset.fold max (⊥ : EReal) src _ ≤ c ↔ _
  rw [Finset.fold_max_le]
  simp only [bot_le, true_and, Finset.mem_filter, Finset.mem_univ]

end Cert.FoldBounds

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibTileBounds.lean ====
/-
  The keepdims minimum (maximum) of a block, broadcast to a small tile, read by its bounds.

  A kernel that wants one number out of an [a, b] block — its least entry — computes it in two steps, because a
  vector reduction folds one axis at a time: first each row's least entry (an [a] vector, kept as an [a, 1]
  column), then the least of the column (one number, kept as [1, 1]), and then fills a [p, q] tile with that
  number. Every entry of the tile is therefore the block's infimum, and the infimum is known by its lower bounds:
  `c` is below it exactly when `c` is below every entry of the block. Dually for the greatest entry and upper
  bounds. Generic in the four extents.

  Also: a host reduction over EVERY axis of an array, into a rank-zero result, has for lower (upper) bounds the
  common lower (upper) bounds of all the array's entries.
-/
import proofs.«140985_j16578573762822_2_alg».proof.Proof.LibFoldBounds
import proofs.«140985_j16578573762822_2_alg».proof.Proof.LibKeepdims
import Idealize.ShloMosaic.Lib.Pipeline.Value

noncomputable section

namespace Cert.TileBounds

open Idealize.ShloMosaic Idealize.ShloMosaic.ValueIdx

/-- A one-entry vector has one index. -/
theorem idx1_unit (j j' : (⟨1, ![1]⟩ : Shape).Idx) : j = j' := by
  funext d
  match d with
  | ⟨0, hd⟩ =>
    apply Fin.ext
    have h : (j ⟨0, hd⟩).val < 1 := (j ⟨0, hd⟩).isLt
    have h' : (j' ⟨0, hd⟩).val < 1 := (j' ⟨0, hd⟩).isLt
    omega

/-- Dropping the column coordinate of `(r, k)` leaves the row `r`. -/
theorem drop_row {a b : ℕ} (h : (⟨2, ![a, b]⟩ : Shape).Reduces [(1 : Fin 2)] ⟨1, ![a]⟩) (r : Fin a) (k : Fin b) :
    h.drop (ix2 r k) = ix1 r := by
  rw [← lift_row h r k]
  exact h.drop_lift (ix1 r) k

variable {a b p q : ℕ}

/-- The tile of the block's least entry: its lower bounds are the block's common lower bounds. -/
theorem le_tileMin (X : FVec Ideal ⟨2, ![a, b]⟩ .f32)
    (h1 : (⟨2, ![a, b]⟩ : Shape).Reduces [(1 : Fin 2)] ⟨1, ![a]⟩)
    (hc1 : (⟨1, ![a]⟩ : Shape).ShapeCasts ⟨2, ![a, 1]⟩)
    (h2 : (⟨2, ![a, 1]⟩ : Shape).Reduces [(0 : Fin 2)] ⟨1, ![1]⟩)
    (hc2 : (⟨1, ![1]⟩ : Shape).ShapeCasts ⟨2, ![1, 1]⟩)
    (hb : (⟨2, ![1, 1]⟩ : Shape).Broadcasts ⟨2, ![p, q]⟩)
    (hφ : FKind.Formats .f32)
    (ha1 : (0x7F800000#32 : BitVec FTy.f32.bits) = FKind.minimumf.neutral .f32 hφ)
    (ha2 : (0x7F800000#32 : BitVec FTy.f32.bits) = FKind.minimumf.neutral .f32 hφ)
    (y : (⟨2, ![p, q]⟩ : Shape).Idx) (c : EReal) :
    c ≤ broadcastTo ⟨2, ![p, q]⟩ (shapeCast ⟨2, ![1, 1]⟩ (multiReduction (F := Ideal) .minimumf [(0 : Fin 2)] ⟨1, ![1]⟩
          (shapeCast ⟨2, ![a, 1]⟩ (multiReduction (F := Ideal) .minimumf [(1 : Fin 2)] ⟨1, ![a]⟩ X 0x7F800000#32 h1 hφ ha1) hc1)
          0x7F800000#32 h2 hφ ha2) hc2) hb y
      ↔ ∀ (r : Fin a) (k : Fin b), c ≤ X (ix2 r k) := by
  rw [broadcastTo_apply _ hb y (ix2 (0 : Fin 1) (0 : Fin 1)) (fun ax => match ax with | ⟨0, _⟩ => rfl | ⟨1, _⟩ => rfl)]
  rw [shapeCast_apply _ hc2 (ix2 (0 : Fin 1) (0 : Fin 1)) (ix1 (0 : Fin 1))
    (by rw [Shape.rowMajor_val_one, Shape.rowMajor_val_two]; rfl)]
  rw [FoldBounds.le_multiReduction_min _ _ h2 hφ ha2 FoldBounds.posInf_f32]
  constructor
  · intro H r k
    have h := H (ix2 r (0 : Fin 1)) (idx1_unit _ _)
    rw [shapeCast_a_a1_apply] at h
    exact (FoldBounds.le_multiReduction_min X _ h1 hφ ha1 FoldBounds.posInf_f32 (ix1 r) c).mp h (ix2 r k) (drop_row h1 r k)
  · intro H i _
    obtain ⟨r, u, rfl⟩ : ∃ (r : Fin a) (u : Fin 1), i = ix2 r u := ⟨i 0, i 1, eq_ix2 i⟩
    rw [shapeCast_a_a1_apply]
    refine (FoldBounds.le_multiReduction_min X _ h1 hφ ha1 FoldBounds.posInf_f32 (ix1 r) c).mpr fun i' _ => ?_
    obtain ⟨r', k', rfl⟩ : ∃ (r' : Fin a) (k' : Fin b), i' = ix2 r' k' := ⟨i' 0, i' 1, eq_ix2 i'⟩
    exact H r' k'

/-- The tile of the block's greatest entry: its upper bounds are the block's common upper bounds. -/
theorem tileMax_le (X : FVec Ideal ⟨2, ![a, b]⟩ .f32)
    (h1 : (⟨2, ![a, b]⟩ : Shape).Reduces [(1 : Fin 2)] ⟨1, ![a]⟩)
    (hc1 : (⟨1, ![a]⟩ : Shape).ShapeCasts ⟨2, ![a, 1]⟩)
    (h2 : (⟨2, ![a, 1]⟩ : Shape).Reduces [(0 : Fin 2)] ⟨1, ![1]⟩)
    (hc2 : (⟨1, ![1]⟩ : Shape).ShapeCasts ⟨2, ![1, 1]⟩)
    (hb : (⟨2, ![1, 1]⟩ : Shape).Broadcasts ⟨2, ![p, q]⟩)
    (hφ : FKind.Formats .f32)
    (ha1 : (0xFF800000#32 : BitVec FTy.f32.bits) = FKind.maximumf.neutral .f32 hφ)
    (ha2 : (0xFF800000#32 : BitVec FTy.f32.bits) = FKind.maximumf.neutral .f32 hφ)
    (y : (⟨2, ![p, q]⟩ : Shape).Idx) (c : EReal) :
    broadcastTo ⟨2, ![p, q]⟩ (shapeCast ⟨2, ![1, 1]⟩ (multiReduction (F := Ideal) .maximumf [(0 : Fin 2)] ⟨1, ![1]⟩
          (shapeCast ⟨2, ![a, 1]⟩ (multiReduction (F := Ideal) .maximumf [(1 : Fin 2)] ⟨1, ![a]⟩ X 0xFF800000#32 h1 hφ ha1) hc1)
          0xFF800000#32 h2 hφ ha2) hc2) hb y ≤ c
      ↔ ∀ (r : Fin a) (k : Fin b), X (ix2 r k) ≤ c := by
  rw [broadcastTo_apply _ hb y (ix2 (0 : Fin 1) (0 : Fin 1)) (fun ax => match ax with | ⟨0, _⟩ => rfl | ⟨1, _⟩ => rfl)]
  rw [shapeCast_apply _ hc2 (ix2 (0 : Fin 1) (0 : Fin 1)) (ix1 (0 : Fin 1))
    (by rw [Shape.rowMajor_val_one, Shape.rowMajor_val_two]; rfl)]
  rw [FoldBounds.multiReduction_max_le _ _ h2 hφ ha2 FoldBounds.negInf_f32]
  constructor
  · intro H r k
    have h := H (ix2 r (0 : Fin 1)) (idx1_unit _ _)
    rw [shapeCast_a_a1_apply] at h
    exact (FoldBounds.multiReduction_max_le X _ h1 hφ ha1 FoldBounds.negInf_f32 (ix1 r) c).mp h (ix2 r k) (drop_row h1 r k)
  · intro H i _
    obtain ⟨r, u, rfl⟩ : ∃ (r : Fin a) (u : Fin 1), i = ix2 r u := ⟨i 0, i 1, eq_ix2 i⟩
    rw [shapeCast_a_a1_apply]
    refine (FoldBounds.multiReduction_max_le X _ h1 hφ ha1 FoldBounds.negInf_f32 (ix1 r) c).mpr fun i' _ => ?_
    obtain ⟨r', k', rfl⟩ : ∃ (r' : Fin a) (k' : Fin b), i' = ix2 r' k' := ⟨i' 0, i' 1, eq_ix2 i'⟩
    exact H r' k'

/-- A host minimum-reduction over every axis, from a rank-zero +∞: lower bounds. -/
theorem le_hostMinAll {s : Shape} {axes : List (Fin s.rank)} (x : s.Idx → Ideal .f32)
    (init : (⟨0, ![]⟩ : Shape).Idx → Ideal .f32) (h : s.ReducesTo axes ⟨0, ![]⟩) (hu : 0 < (⟨0, ![]⟩ : Shape).numel)
    (hinit : init (Shape.Idx.first hu) = (⊤ : EReal)) (j : (⟨0, ![]⟩ : Shape).Idx) (c : EReal) :
    c ≤ Host.reduce (FloatOps.minimumf (F := Ideal) (φ := .f32)) x init h hu j ↔ ∀ i, c ≤ x i := by
  rw [FoldBounds.le_hostReduce_min x init h hu hinit]
  exact ⟨fun H i => H i (funext fun d => d.elim0), fun H i _ => H i⟩

/-- A host maximum-reduction over every axis, from a rank-zero -∞: upper bounds. -/
theorem hostMaxAll_le {s : Shape} {axes : List (Fin s.rank)} (x : s.Idx → Ideal .f32)
    (init : (⟨0, ![]⟩ : Shape).Idx → Ideal .f32) (h : s.ReducesTo axes ⟨0, ![]⟩) (hu : 0 < (⟨0, ![]⟩ : Shape).numel)
    (hinit : init (Shape.Idx.first hu) = (⊥ : EReal)) (j : (⟨0, ![]⟩ : Shape).Idx) (c : EReal) :
    Host.reduce (FloatOps.maximumf (F := Ideal) (φ := .f32)) x init h hu j ≤ c ↔ ∀ i, x i ≤ c := by
  rw [FoldBounds.hostReduce_max_le x init h hu hinit]
  exact ⟨fun H i => H i (funext fun d => d.elim0), fun H i _ => H i⟩

end Cert.TileBounds

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.TilePayloads.lean ====
/-
  What one grid point of the matrix-product kernel computes, as extended reals.

  The kernel walks a grid (i, j, k): row tile i (2048 rows), column tile j (1024 columns), contraction block k
  (1024 of the 4096 contracted positions). Its body keeps a [2048, 1024] accumulator between the four k-steps of
  a tile and has five pure pieces:
    * the reset value, the zero block;
    * the step  acc ↦ acc + A·B  with A the [2048, 1024] block of the quantized activations and B the
      [1024, 1024] block of the transposed quantized weights: entry (r, q) gains Σ_c A(r, c)·B(c, q);
    * the finished tile  acc + bias  (the bias row repeated down the rows);
    * the tile's least entry and its greatest entry, each spread over an [8, 128] table block.
  Read on the extended reals nothing is rounded, so each piece is the plain formula; the two extreme entries are
  stated by their bounds (a number is below the least entry iff it is below every entry).
-/
import proofs.«140985_j16578573762822_2_alg».proof.Proof.Gen.KernelIdeal.Skeleton
import proofs.«140985_j16578573762822_2_alg».proof.Proof.LibTileBounds
import proofs.«140985_j16578573762822_2_alg».proof.Proof.LibPlainMatmul
import Idealize.ShloMosaic.Lib.ValueLayout
import Idealize.ShloMosaic.Lib.Pipeline.Value

noncomputable section

namespace Cert.KernelIdeal.TileValue

open Cert.KernelIdeal Cert.KernelIdeal.Gen Idealize.ShloMosaic Idealize.ShloMosaic.ValueIdx

/-- The reset stores the zero block. -/
theorem pay1_apply (y : S2048x1024.Idx) : k0_pay1 (F := Ideal) y = 0 := by
  unfold k0_pay1
  simp only [shapeCast_self]
  exact Ideal.ofBits_zero_f32

/-- One contraction step: entry (r, q) of the accumulator gains the product of row r of the activation block with
    column q of the weight block. -/
theorem pay2_apply (acc : Vec Ideal S2048x1024 .f32) (A : Vec Ideal S2048x1024 .bf16) (B : Vec Ideal S1024x1024 .bf16)
    (r : Fin 2048) (q : Fin 1024) :
    k0_pay2 (F := Ideal) acc A B (ix2 r q) = acc (ix2 r q) + ∑ c : Fin 1024, A (ix2 r c) * B (ix2 c q) := by
  unfold k0_pay2
  simp only [shapeCast_self]
  exact congrArg (acc (ix2 r q) + ·) (Cert.LibPlainMatmul.matmul_plain_zero_apply (m := 2048) (k := 1024) (n := 1024) none A B r q)

/-- The finished tile: the accumulator plus the bias row. -/
theorem pay3_apply (acc : Vec Ideal S2048x1024 .f32) (bias : Vec Ideal S1x1024 .f32) (r : Fin 2048) (q : Fin 1024) :
    k0_pay3 (F := Ideal) acc bias (ix2 r q) = acc (ix2 r q) + bias (ix2 (0 : Fin 1) q) := by
  unfold k0_pay3
  simp only [shapeCast_self]
  exact congrArg (acc (ix2 r q) + ·) (broadcastTo_1b_ab_apply (a := 2048) (b := 1024) bias _ r q)

/-- Every entry of the minimum table block is the finished tile's least entry. -/
theorem le_pay4 (acc : Vec Ideal S2048x1024 .f32) (bias : Vec Ideal S1x1024 .f32) (y : S8x128.Idx) (c : EReal) :
    c ≤ k0_pay4 (F := Ideal) acc bias y ↔ ∀ (r : Fin 2048) (q : Fin 1024), c ≤ k0_pay3 (F := Ideal) acc bias (ix2 r q) := by
  unfold k0_pay4
  simp only [shapeCast_self]
  exact Cert.TileBounds.le_tileMin (a := 2048) (b := 1024) (p := 8) (q := 128) (k0_pay3 (F := Ideal) acc bias) _ _ _ _ _ _ _ _ y c

/-- Every entry of the maximum table block is the finished tile's greatest entry. -/
theorem pay5_le (acc : Vec Ideal S2048x1024 .f32) (bias : Vec Ideal S1x1024 .f32) (y : S8x128.Idx) (c : EReal) :
    k0_pay5 (F := Ideal) acc bias y ≤ c ↔ ∀ (r : Fin 2048) (q : Fin 1024), k0_pay3 (F := Ideal) acc bias (ix2 r q) ≤ c := by
  unfold k0_pay5
  simp only [shapeCast_self]
  exact Cert.TileBounds.tileMax_le (a := 2048) (b := 1024) (p := 8) (q := 128) (k0_pay3 (F := Ideal) acc bias) _ _ _ _ _ _ _ _ y c

end Cert.KernelIdeal.TileValue

end
-- ==== Proof.RegionArrays.lean ====
/-
  What the matrix-product region finds in its three input arrays, and the two scales the tail reads.

  Before the region the kernel's host code quantizes: the activations to  qx - zp  (stored as bf16), the weights to
  qw (stored as bf16 and transposed, so that the region contracts rows of one with columns of the other), the bias to
  the integer domain. The reference quantizes with the same operations on the same literals, in the same order, so
  each array the region finds is a stage of the reference's own computation — composed with a change of float
  format, which at the exact instance changes nothing, and for the weights with the transposition. Likewise the
  per-channel weight scale and the activation scale that the tail reads after the region. Each equation is read off
  the list of host operations; no arithmetic is involved. Stated at any float instance.
-/
import proofs.«140985_j16578573762822_2_alg».proof.Proof.Gen.KernelIdeal.Frame
import proofs.«140985_j16578573762822_2_alg».proof.Proof.Gen.ReferenceIdeal.Read
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 8000000 in
/-- The activation operand: the reference's quantized, zero-point-shifted activations, narrowed to bf16. -/
theorem acts_eq (c : Dev nD) :
    (V m c main_v26 : S16384x4096.Idx → F .bf16) = truncf .bf16 (Cert.ReferenceIdeal.Read.val_main_v25 (F := F) (m ((c.tc : Thread nD τ).loc main_arg0))) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 8000000 in
/-- The weight operand: the reference's quantized weights, narrowed to bf16 and transposed. -/
theorem weights_eq (c : Dev nD) :
    (V m c main_v34 : S4096x4096.Idx → F .bf16) = transpose S4096x4096 [1, 0] (truncf .bf16 (Cert.ReferenceIdeal.Read.val_main_v8 (F := F) (m ((c.tc : Thread nD τ).loc main_arg1))) bitsLt_bf16_f32) transposes_S4096x4096_S4096x4096_1_0 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 8000000 in
/-- The bias operand: the reference's bias in the integer domain, as one row. -/
theorem bias_eq (c : Dev nD) :
    (V m c main_v32 : S1x4096.Idx → F .f32) = Cert.ReferenceIdeal.Read.val_main_v32 (F := F) (m ((c.tc : Thread nD τ).loc main_arg0)) (m ((c.tc : Thread nD τ).loc main_arg1)) (m ((c.tc : Thread nD τ).loc main_arg2)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 8000000 in
/-- The per-channel weight scale. -/
theorem wscale_eq (c : Dev nD) :
    (V m c main_v3 : S4096.Idx → F .f32) = Cert.ReferenceIdeal.Read.val_main_v3 (F := F) (m ((c.tc : Thread nD τ).loc main_arg1)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 8000000 in
/-- The activation scale. -/
theorem ascale_eq (c : Dev nD) :
    (V m c main_v14 : S_.Idx → F .f32) = Cert.ReferenceIdeal.Read.val_main_v14 (F := F) (m ((c.tc : Thread nD τ).loc main_arg0)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

end Cert.KernelIdeal.HostValue

end
-- ==== Proof.RefRes.lean ====
/-
  The reference's integer-domain result at an entry.

  The reference computes  res = einsum('ni,oi->no', qx, qw) + qbias : row R of the quantized activations against
  row Q of the quantized weights (both contracted along their second axis), plus the Q-th quantized bias. At the
  exact instance a host contraction is the plain sum of products, so
      res(R, Q) = Σ_k qx(R, k)·qw(Q, k) + qbias(0, Q).
-/
import proofs.«140985_j16578573762822_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- The reference's integer-domain result read at (R, Q). -/
theorem res_apply (x0 : (⟨S16384x4096, .f32⟩ : BufTy).Contents (Elt Ideal)) (x1 : (⟨S4096x4096, .f32⟩ : BufTy).Contents (Elt Ideal))
    (x2 : (⟨S4096, .f32⟩ : BufTy).Contents (Elt Ideal)) (R : Fin 16384) (Q : Fin 4096) :
    val_main_v34 (F := Ideal) x0 x1 x2 (ix2 R Q)
      = (∑ k : Fin 4096, val_main_v25 (F := Ideal) x0 (ix2 R k) * val_main_v8 (F := Ideal) x1 (ix2 Q k))
        + val_main_v32 (F := Ideal) x0 x1 x2 (ix2 (0 : Fin 1) Q) := by
  have el : ∀ k : Fin 4096, lidx_main_v26 (ix2 R Q) k = ix2 R k := fun k => funext fun a => Fin.ext (by
    match a with
    | ⟨0, _⟩ => rfl
    | ⟨1, _⟩ => rfl)
  have er : ∀ k : Fin 4096, ridx_main_v26 (ix2 R Q) k = ix2 Q k := fun k => funext fun a => Fin.ext (by
    match a with
    | ⟨0, _⟩ => rfl
    | ⟨1, _⟩ => rfl)
  have eb : idx_main_v33 (ix2 R Q) = ix2 (0 : Fin 1) Q := funext fun a => Fin.ext (by
    match a with
    | ⟨0, _⟩ => rfl
    | ⟨1, _⟩ => rfl)
  rw [val_main_v34_apply, val_main_v26_apply, val_main_v33_apply]
  simp only [el, er, eb]
  rfl

end Cert.ReferenceIdeal.RefValue

end
-- ==== Proof.LibBlockSum.lean ====
/-
  A sum over a range cut into equal blocks.

  In a commutative monoid the sum of g over the nb·kb positions 0 … nb·kb - 1 is the sum, over the nb blocks s, of
  the sum over the kb positions c inside the block, of g at position  c + kb·s . Nothing is assumed of g beyond
  its type, and nothing of the monoid beyond commutativity and associativity of + — on the extended reals, where
  + is total, commutative and associative but does not cancel, this holds with infinite terms too. The four-block
  case is spelt out as the left-nested chain an accumulator builds from zero:  (((0 + S₀) + S₁) + S₂) + S₃ .
-/
import Mathlib.Algebra.BigOperators.Fin
import Mathlib.Logic.Equiv.Fin.Basic

namespace Cert.BlockSum

/-- The sum over `Fin (nb * kb)` as the double sum over blocks and positions inside a block. -/
theorem sum_blocks {M : Type*} [AddCommMonoid M] (nb kb : ℕ) (g : Fin (nb * kb) → M) :
    ∑ k, g k = ∑ s : Fin nb, ∑ c : Fin kb, g (finProdFinEquiv (s, c)) := by
  rw [← Equiv.sum_comp finProdFinEquiv g, Fintype.sum_prod_type]

/-- Position `c` of block `s` is the natural number `c + kb * s`. -/
theorem block_pos_val (nb kb : ℕ) (s : Fin nb) (c : Fin kb) :
    ((finProdFinEquiv (s, c) : Fin (nb * kb)) : ℕ) = c.val + kb * s.val := rfl

/-- Four blocks, accumulated from zero in order, make the whole sum. -/
theorem chain_four {M : Type*} [AddCommMonoid M] (kb : ℕ) (g : Fin (4 * kb) → M) :
    (((0 + ∑ c : Fin kb, g (finProdFinEquiv ((0 : Fin 4), c))) + ∑ c : Fin kb, g (finProdFinEquiv ((1 : Fin 4), c)))
        + ∑ c : Fin kb, g (finProdFinEquiv ((2 : Fin 4), c))) + ∑ c : Fin kb, g (finProdFinEquiv ((3 : Fin 4), c))
      = ∑ k, g k := by
  rw [sum_blocks 4 kb g, Fin.sum_univ_four, zero_add]

end Cert.BlockSum
-- ==== Proof.TileSum.lean ====
/-
  The finished tile is the reference's integer-domain result on that tile.

  At the last contraction step of tile (i, j) the accumulator has been stepped four times from the zero block, so at
  entry (r, q) it holds
      (((0 + Σ_c A₀(r,c)·B₀(c,q)) + Σ_c A₁(r,c)·B₁(c,q)) + Σ_c A₂(r,c)·B₂(c,q)) + Σ_c A₃(r,c)·B₃(c,q)
  with A_k, B_k the blocks at contraction block k. A_k(r, c) is the activation array at (2048·i + r, 1024·k + c) and
  B_k(c, q) the transposed weight array at (1024·k + c, 1024·j + q), so the four block sums are the four quarters of one
  sum over the 4096 contracted positions — the extended reals under + are a commutative monoid, so regrouping a finite
  sum is free, infinite terms or not. Adding the bias entry gives the finished tile's entry. The activation array is
  the reference's quantized activations and the weight array the transpose of its quantized weights (a change of
  float format is the identity at the exact instance), so this is the reference's
      res(R, Q) = Σ_k qx(R, k)·qw(Q, k) + qbias(0, Q)     at  R = 2048·i + r,  Q = 1024·j + q.
-/
import proofs.«140985_j16578573762822_2_alg».proof.Proof.TileFold
import proofs.«140985_j16578573762822_2_alg».proof.Proof.TileBlocks
import proofs.«140985_j16578573762822_2_alg».proof.Proof.TilePayloads
import proofs.«140985_j16578573762822_2_alg».proof.Proof.RegionArrays
import proofs.«140985_j16578573762822_2_alg».proof.Proof.RefRes
import proofs.«140985_j16578573762822_2_alg».proof.Proof.LibBlockSum
import Idealize.ShloMosaic.Lib.ValueLayout

set_option maxRecDepth 16384

noncomputable section

namespace Cert.KernelIdeal.TileValue

open Cert.KernelIdeal Cert.KernelIdeal.Gen Idealize.ShloMosaic Idealize.ShloMosaic.TcCoe Idealize.ShloMosaic.ValueIdx
open Idealize.SL.Sem

/-- Position c of contraction block s among the 4096 contracted positions. -/
def blockPos (s : Fin 4) (c : Fin 1024) : Fin 4096 := finProdFinEquiv (s, c)

theorem blockPos_val (s : Fin 4) (c : Fin 1024) : (blockPos s c).val = c.val + 1024 * s.val := rfl

/-- Four block sums accumulated from zero in order are the sum over all 4096 positions. -/
theorem sum_four_blocks {M : Type*} [AddCommMonoid M] (g : Fin 4096 → M) :
    (((0 + ∑ c : Fin 1024, g (blockPos 0 c)) + ∑ c : Fin 1024, g (blockPos 1 c)) + ∑ c : Fin 1024, g (blockPos 2 c))
        + ∑ c : Fin 1024, g (blockPos 3 c) = ∑ k, g k :=
  Cert.BlockSum.chain_four 1024 g

/-- One block's sum of products, once each block entry is known to be an array entry at the block's positions. -/
theorem blockSum_eq (A : Vec Ideal S2048x1024 .bf16) (B : Vec Ideal S1024x1024 .bf16)
    (Aarr : S16384x4096.Idx → Ideal .bf16) (Barr : S4096x4096.Idx → Ideal .bf16)
    (r : Fin 2048) (q : Fin 1024) (R : Fin 16384) (Q : Fin 4096) (s : Fin 4)
    (hA : ∀ c' : Fin 1024, A (ix2 r c') = Aarr (ix2 R (blockPos s c')))
    (hB : ∀ c' : Fin 1024, B (ix2 c' q) = Barr (ix2 (blockPos s c') Q)) :
    ∑ c' : Fin 1024, A (ix2 r c') * B (ix2 c' q) = ∑ c' : Fin 1024, Aarr (ix2 R (blockPos s c')) * Barr (ix2 (blockPos s c') Q) :=
  Finset.sum_congr rfl fun c' _ => by rw [hA c', hB c']

/-- The accumulator's chain of four block sums is the one sum over all contracted positions. -/
theorem chain_to_sum (Aarr : S16384x4096.Idx → Ideal .bf16) (Barr : S4096x4096.Idx → Ideal .bf16) (R : Fin 16384) (Q : Fin 4096) :
    (((0 + ∑ c' : Fin 1024, Aarr (ix2 R (blockPos 0 c')) * Barr (ix2 (blockPos 0 c') Q))
        + ∑ c' : Fin 1024, Aarr (ix2 R (blockPos 1 c')) * Barr (ix2 (blockPos 1 c') Q))
        + ∑ c' : Fin 1024, Aarr (ix2 R (blockPos 2 c')) * Barr (ix2 (blockPos 2 c') Q))
        + ∑ c' : Fin 1024, Aarr (ix2 R (blockPos 3 c')) * Barr (ix2 (blockPos 3 c') Q)
      = ∑ k : Fin 4096, Aarr (ix2 R k) * Barr (ix2 k Q) :=
  sum_four_blocks (fun k : Fin 4096 => Aarr (ix2 R k) * Barr (ix2 k Q))

/-- Narrowing to bf16 changes nothing at the exact instance, and the transposed weights at (k, Q) are the weights at
    (Q, k): the kernel's operands give the reference's sum of products. -/
theorem operands_sum (X : S16384x4096.Idx → Ideal .f32) (W : S4096x4096.Idx → Ideal .f32) (R : Fin 16384) (Q : Fin 4096) :
    ∑ k : Fin 4096, (truncf .bf16 X bitsLt_bf16_f32 : S16384x4096.Idx → Ideal .bf16) (ix2 R k)
        * (transpose S4096x4096 [1, 0] (truncf .bf16 W bitsLt_bf16_f32 : S4096x4096.Idx → Ideal .bf16) transposes_S4096x4096_S4096x4096_1_0) (ix2 k Q)
      = ∑ k : Fin 4096, X (ix2 R k) * W (ix2 Q k) :=
  Finset.sum_congr rfl fun k _ => by rw [truncf_apply, transpose_ix2_apply, truncf_apply]

variable (m : (ℓ : Loc nD τ sig) → Buf (Elt Ideal) ℓ)

/-- The finished tile at the last point t of a tile, entry (r, q), is the reference's integer-domain result at
    (2048·(t/16) + r, 1024·(t/4 mod 4) + q). -/
theorem tile_value (c : Dev nD) (t : Fin cfg0.N) (h3 : t.val % 4 = 3) (r : Fin 2048) (q : Fin 1024)
    (R : Fin 16384) (Q : Fin 4096) (hR : R.val = 2048 * (t.val / 16) + r.val) (hQ : Q.val = 1024 * (t.val / 4 % 4) + q.val) :
    k0_pay3 (F := Ideal) ((outsAt0 m c t.val t.isLt).2.2.2) (iblk m c 2 t) (ix2 r q)
      = Cert.ReferenceIdeal.Read.val_main_v34 (F := Ideal) (m ((c.tc : Thread nD τ).loc main_arg0)) (m ((c.tc : Thread nD τ).loc main_arg1)) (m ((c.tc : Thread nD τ).loc main_arg2)) (ix2 R Q) := by
  obtain ⟨n, hn⟩ := t
  dsimp only at h3 hR hQ ⊢
  obtain ⟨p, rfl⟩ : ∃ p, n = 4 * p + 3 := ⟨n / 4, by omega⟩
  have hN : cfg0.N = 128 := N_0
  have h0 : 4 * p + 0 < cfg0.N := by omega
  have h1 : 4 * p + 1 < cfg0.N := by omega
  have h2 : 4 * p + 2 < cfg0.N := by omega
  rw [pay3_apply, acc_tile m c p h0 h1 h2 hn]
  rw [pay2_apply (k0_pay2 (k0_pay2 (k0_pay2 (k0_pay1 (F := Ideal)) (iblk m c 0 ⟨4 * p + 0, h0⟩) (iblk m c 1 ⟨4 * p + 0, h0⟩)) (iblk m c 0 ⟨4 * p + 1, h1⟩) (iblk m c 1 ⟨4 * p + 1, h1⟩)) (iblk m c 0 ⟨4 * p + 2, h2⟩) (iblk m c 1 ⟨4 * p + 2, h2⟩)) (iblk m c 0 ⟨4 * p + 3, hn⟩) (iblk m c 1 ⟨4 * p + 3, hn⟩) r q,
    pay2_apply (k0_pay2 (k0_pay2 (k0_pay1 (F := Ideal)) (iblk m c 0 ⟨4 * p + 0, h0⟩) (iblk m c 1 ⟨4 * p + 0, h0⟩)) (iblk m c 0 ⟨4 * p + 1, h1⟩) (iblk m c 1 ⟨4 * p + 1, h1⟩)) (iblk m c 0 ⟨4 * p + 2, h2⟩) (iblk m c 1 ⟨4 * p + 2, h2⟩) r q,
    pay2_apply (k0_pay2 (k0_pay1 (F := Ideal)) (iblk m c 0 ⟨4 * p + 0, h0⟩) (iblk m c 1 ⟨4 * p + 0, h0⟩)) (iblk m c 0 ⟨4 * p + 1, h1⟩) (iblk m c 1 ⟨4 * p + 1, h1⟩) r q,
    pay2_apply (k0_pay1 (F := Ideal)) (iblk m c 0 ⟨4 * p + 0, h0⟩) (iblk m c 1 ⟨4 * p + 0, h0⟩) r q,
    pay1_apply (ix2 r q)]
  rw [blockSum_eq (iblk m c 0 ⟨4 * p + 0, h0⟩) (iblk m c 1 ⟨4 * p + 0, h0⟩) (V m c main_v26) (V m c main_v34) r q R Q 0
      (fun c' => actBlock_apply m c ⟨4 * p + 0, h0⟩ r c' R (blockPos 0 c')
        (by show R.val = 2048 * ((4 * p + 0) / 16) + r.val; omega)
        (by rw [blockPos_val]; show c'.val + 1024 * 0 = 1024 * ((4 * p + 0) % 4) + c'.val; omega))
      (fun c' => wtBlock_apply m c ⟨4 * p + 0, h0⟩ c' q (blockPos 0 c') Q
        (by rw [blockPos_val]; show c'.val + 1024 * 0 = 1024 * ((4 * p + 0) % 4) + c'.val; omega)
        (by show Q.val = 1024 * ((4 * p + 0) / 4 % 4) + q.val; omega)),
    blockSum_eq (iblk m c 0 ⟨4 * p + 1, h1⟩) (iblk m c 1 ⟨4 * p + 1, h1⟩) (V m c main_v26) (V m c main_v34) r q R Q 1
      (fun c' => actBlock_apply m c ⟨4 * p + 1, h1⟩ r c' R (blockPos 1 c')
        (by show R.val = 2048 * ((4 * p + 1) / 16) + r.val; omega)
        (by rw [blockPos_val]; show c'.val + 1024 * 1 = 1024 * ((4 * p + 1) % 4) + c'.val; omega))
      (fun c' => wtBlock_apply m c ⟨4 * p + 1, h1⟩ c' q (blockPos 1 c') Q
        (by rw [blockPos_val]; show c'.val + 1024 * 1 = 1024 * ((4 * p + 1) % 4) + c'.val; omega)
        (by show Q.val = 1024 * ((4 * p + 1) / 4 % 4) + q.val; omega)),
    blockSum_eq (iblk m c 0 ⟨4 * p + 2, h2⟩) (iblk m c 1 ⟨4 * p + 2, h2⟩) (V m c main_v26) (V m c main_v34) r q R Q 2
      (fun c' => actBlock_apply m c ⟨4 * p + 2, h2⟩ r c' R (blockPos 2 c')
        (by show R.val = 2048 * ((4 * p + 2) / 16) + r.val; omega)
        (by rw [blockPos_val]; show c'.val + 1024 * 2 = 1024 * ((4 * p + 2) % 4) + c'.val; omega))
      (fun c' => wtBlock_apply m c ⟨4 * p + 2, h2⟩ c' q (blockPos 2 c') Q
        (by rw [blockPos_val]; show c'.val + 1024 * 2 = 1024 * ((4 * p + 2) % 4) + c'.val; omega)
        (by show Q.val = 1024 * ((4 * p + 2) / 4 % 4) + q.val; omega)),
    blockSum_eq (iblk m c 0 ⟨4 * p + 3, hn⟩) (iblk m c 1 ⟨4 * p + 3, hn⟩) (V m c main_v26) (V m c main_v34) r q R Q 3
      (fun c' => actBlock_apply m c ⟨4 * p + 3, hn⟩ r c' R (blockPos 3 c')
        (by show R.val = 2048 * ((4 * p + 3) / 16) + r.val; omega)
        (by rw [blockPos_val]; show c'.val + 1024 * 3 = 1024 * ((4 * p + 3) % 4) + c'.val; omega))
      (fun c' => wtBlock_apply m c ⟨4 * p + 3, hn⟩ c' q (blockPos 3 c') Q
        (by rw [blockPos_val]; show c'.val + 1024 * 3 = 1024 * ((4 * p + 3) % 4) + c'.val; omega)
        (by show Q.val = 1024 * ((4 * p + 3) / 4 % 4) + q.val; omega))]
  rw [biasBlock_apply m c ⟨4 * p + 3, hn⟩ q Q (by show Q.val = 1024 * ((4 * p + 3) / 4 % 4) + q.val; omega)]
  rw [chain_to_sum (V m c main_v26) (V m c main_v34) R Q]
  rw [Cert.KernelIdeal.HostValue.acts_eq m c, Cert.KernelIdeal.HostValue.weights_eq m c, Cert.KernelIdeal.HostValue.bias_eq m c]
  rw [operands_sum _ _ R Q]
  exact (Cert.ReferenceIdeal.RefValue.res_apply _ _ _ R Q).symm

end Cert.KernelIdeal.TileValue

end
-- ==== Proof.ResultArrays.lean ====
/-
  The three arrays the region leaves.

  * The result array. Tile (i, j) is written back once, at the tile's last contraction step, and the tiles cover the
    array; each finished tile is the reference's integer-domain result restricted to it; so the array IS that result.
  * The minimum table. Block (i, j) of the [64, 512] table is filled with tile (i, j)'s least entry. Hence every table
    entry is a lower bound of the result on its tile, and any lower bound of the whole result is below every table
    entry. So the table and the result have the same lower bounds — the same infimum — and a minimum-reduction from +∞
    over all of either gives the same number.
  * The maximum table: the same with upper bounds and the supremum.
  Only order facts are used: no tile has to be named and no entry compared with another.
-/
import proofs.«140985_j16578573762822_2_alg».proof.Proof.TileSum
import proofs.«140985_j16578573762822_2_alg».proof.Proof.LibTileBounds

set_option maxRecDepth 16384

noncomputable section

namespace Cert.KernelIdeal.TileValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The reference's integer-domain result of this memory's argument arrays. -/
abbrev resRef (c : Dev nD) : S16384x4096.Idx → Ideal .f32 :=
  Cert.ReferenceIdeal.Read.val_main_v34 (F := Ideal) (m ((c.tc : Thread nD τ).loc main_arg0)) (m ((c.tc : Thread nD τ).loc main_arg1)) (m ((c.tc : Thread nD τ).loc main_arg2))

/-- The minimum table after the run, as a [64, 512] array of extended reals. -/
def minTable (c : Dev nD) : S64x512.Idx → Ideal .f32 := (dats m 0 c).arrAt 4 cfg0.N

/-- The maximum table after the run. -/
def maxTable (c : Dev nD) : S64x512.Idx → Ideal .f32 := (dats m 0 c).arrAt 5 cfg0.N

/-! ## The result array -/

/-- What a tile's last point writes back is the reference's result on that tile. -/
theorem tile_flushed (c : Dev nD) (t : Fin cfg0.N) (hf : (cfg0.win 3).flush t = true) :
    (dats m 0 c).flushed 3 t = ((cfg0.win 3).blk t).view.read (Elt Ideal) (resRef m c) := by
  have h3 : t.val % 4 = 3 := (flush0_3 t).mp hf
  have hN : cfg0.N = 128 := N_0
  have ht : t.val < 128 := hN ▸ t.isLt
  obtain ⟨-, -, -, -, -, -, e0, e1, -⟩ := block_index t
  show (cfg0.win 3).cut (grid0.coords t) ((dats m 0 c).after 3 t) = _
  rw [after0_3, tile_at m c t h3]
  funext y
  obtain ⟨r, q, rfl⟩ : ∃ (r : Fin 2048) (q : Fin 1024), y = ix2 r q := ⟨y 0, y 1, eq_ix2 y⟩
  show k0_pay3 (F := Ideal) ((outsAt0 m c t.val t.isLt).2.2.2) (iblk m c 2 t) (ix2 r q) = resRef m c (((cfg0.win 3).blk t).view.emb (ix2 r q))
  refine (tile_value m c t h3 r q ⟨2048 * (t.val / 16) + r.val, by omega⟩ ⟨1024 * (t.val / 4 % 4) + q.val, by omega⟩ rfl rfl).trans
    (congrArg (resRef m c) (funext fun a => Fin.ext ?_))
  match a with
  | ⟨0, _⟩ => show 2048 * (t.val / 16) + r.val = win0_3.index t (0 : Fin 2) * 2048 + 1 * r.val; omega
  | ⟨1, _⟩ => show 1024 * (t.val / 4 % 4) + q.val = win0_3.index t (1 : Fin 2) * 1024 + 1 * q.val; omega

/-- An index of the result array is in point t's tile iff each coordinate is in the tile's range on its axis. -/
theorem mem_tile (t : Fin cfg0.N) (i : S16384x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v35_0).slice (win0_3.rect t)).set ↔ _
  rw [View.set_slice_whole, Rect.mem_set_unit]
  exact Iff.rfl

/-- Every entry of the result array is in the tile of some tile's last point. -/
theorem tile_cover (i : S16384x4096.Idx) :
    ∃ t : Fin cfg0.N, (cfg0.win 3).flush t = true ∧ i ∈ ((cfg0.win 3).blk t).view.set := by
  have hN : cfg0.N = 128 := N_0
  have h0 : (i 0).val < 16384 := (i 0).isLt
  have h1 : (i 1).val < 4096 := (i 1).isLt
  obtain ⟨t, ht⟩ : ∃ t : Fin cfg0.N, t.val = 16 * ((i 0).val / 2048) + 4 * ((i 1).val / 1024) + 3 := ⟨⟨_, by omega⟩, rfl⟩
  obtain ⟨-, -, -, -, -, -, e0, e1, -⟩ := block_index t
  refine ⟨t, (flush0_3 t).mpr (by omega), ?_⟩
  rw [mem_tile]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- The result array after the run is the reference's integer-domain result. -/
theorem result_array (c : Dev nD) : (dats m 0 c).arrAt 3 cfg0.N = resRef m c :=
  (dats m 0 c).arrAt_eq_of_cover 3 (resRef m c) (tile_flushed m c) tile_cover

/-! ## The minimum table -/

/-- An index of the min table is in point t's block iff each coordinate is in the block's range on its axis. -/
theorem mem_minBlock (t : Fin cfg0.N) (i : S64x512.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v35_1).slice (win0_4.rect t)).set ↔ _
  rw [View.set_slice_whole, Rect.mem_set_unit]
  exact Iff.rfl

/-- Every entry of the min table is in the block of some tile's last point. -/
theorem minTable_cover (i : S64x512.Idx) :
    ∃ t : Fin cfg0.N, (cfg0.win 4).flush t = true ∧ i ∈ ((cfg0.win 4).blk t).view.set := by
  have hN : cfg0.N = 128 := N_0
  have h0 : (i 0).val < 64 := (i 0).isLt
  have h1 : (i 1).val < 512 := (i 1).isLt
  obtain ⟨t, ht⟩ : ∃ t : Fin cfg0.N, t.val = 16 * ((i 0).val / 8) + 4 * ((i 1).val / 128) + 3 := ⟨⟨_, by omega⟩, rfl⟩
  obtain ⟨-, -, -, -, -, -, -, -, e40, e41, e50, e51⟩ := block_index t
  refine ⟨t, (flush0_4 t).mpr (by omega), ?_⟩
  rw [mem_minBlock]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

/-- A table entry is below every entry of the result on its tile. -/
theorem minTable_le (c : Dev nD) (i : S64x512.Idx) (R : Fin 16384) (Q : Fin 4096)
    (hR : R.val / 2048 = (i 0).val / 8) (hQ : Q.val / 1024 = (i 1).val / 128) :
    minTable m c i ≤ resRef m c (ix2 R Q) := by
  refine (dats m 0 c).arrAt_forall_of_cover 4
    (fun (i : S64x512.Idx) (v : Ideal .f32) => ∀ (R : Fin 16384) (Q : Fin 4096),
      R.val / 2048 = (i 0).val / 8 → Q.val / 1024 = (i 1).val / 128 → v ≤ resRef m c (ix2 R Q)) ?_ minTable_cover i R Q hR hQ
  intro t hf y R Q hR hQ
  have h3 : t.val % 4 = 3 := (flush0_4 t).mp hf
  have hN : cfg0.N = 128 := N_0
  have ht : t.val < 128 := hN ▸ t.isLt
  obtain ⟨-, -, -, -, -, -, -, -, e40, e41, -⟩ := block_index t
  obtain ⟨a0, b0, rfl⟩ : ∃ (a0 : Fin 8) (b0 : Fin 128), y = ix2 a0 b0 := ⟨y 0, y 1, eq_ix2 y⟩
  have hR' : R.val / 2048 = (win0_4.index t (0 : Fin 2) * 8 + 1 * a0.val) / 8 := hR
  have hQ' : Q.val / 1024 = (win0_4.index t (1 : Fin 2) * 128 + 1 * b0.val) / 128 := hQ
  show @LE.le EReal _ ((cfg0.win 4).cut (grid0.coords t) ((dats m 0 c).after 4 t) (ix2 a0 b0)) (resRef m c (ix2 R Q))
  rw [after0_4, minBlock_at m c t h3]
  have key := (le_pay4 ((outsAt0 m c t.val t.isLt).2.2.2) (iblk m c 2 t) (ix2 a0 b0) (k0_pay4 (F := Ideal) ((outsAt0 m c t.val t.isLt).2.2.2) (iblk m c 2 t) (ix2 a0 b0))).mp le_rfl
    ⟨R.val % 2048, Nat.mod_lt _ (by decide)⟩ ⟨Q.val % 1024, Nat.mod_lt _ (by decide)⟩
  rw [tile_value m c t h3 ⟨R.val % 2048, Nat.mod_lt _ (by decide)⟩ ⟨Q.val % 1024, Nat.mod_lt _ (by decide)⟩ R Q
    (by show R.val = 2048 * (t.val / 16) + R.val % 2048; have := a0.isLt; omega)
    (by show Q.val = 1024 * (t.val / 4 % 4) + Q.val % 1024; have := b0.isLt; omega)] at key
  exact key

/-- A lower bound of the whole result is below every table entry. -/
theorem le_minTable (c : Dev nD) (b : EReal) (H : ∀ (R : Fin 16384) (Q : Fin 4096), b ≤ resRef m c (ix2 R Q)) (i : S64x512.Idx) :
    b ≤ minTable m c i := by
  refine (dats m 0 c).arrAt_forall_of_cover 4 (fun (_ : S64x512.Idx) (v : Ideal .f32) => b ≤ v) ?_ minTable_cover i
  intro t hf y
  have h3 : t.val % 4 = 3 := (flush0_4 t).mp hf
  have hN : cfg0.N = 128 := N_0
  have ht : t.val < 128 := hN ▸ t.isLt
  obtain ⟨a0, b0, rfl⟩ : ∃ (a0 : Fin 8) (b0 : Fin 128), y = ix2 a0 b0 := ⟨y 0, y 1, eq_ix2 y⟩
  show b ≤ (cfg0.win 4).cut (grid0.coords t) ((dats m 0 c).after 4 t) (ix2 a0 b0)
  rw [after0_4, minBlock_at m c t h3]
  refine (le_pay4 ((outsAt0 m c t.val t.isLt).2.2.2) (iblk m c 2 t) (ix2 a0 b0) b).mpr fun r q => ?_
  rw [tile_value m c t h3 r q ⟨2048 * (t.val / 16) + r.val, by omega⟩ ⟨1024 * (t.val / 4 % 4) + q.val, by omega⟩ rfl rfl]
  exact H _ _

/-- The minimum over the table is the minimum over the result. -/
theorem minAll_eq (c : Dev nD) :
    Host.reduce (FloatOps.minimumf (F := Ideal) (φ := .f32)) ((dats m 0 c).arrAt 4 cfg0.N)
        (constant (F := Ideal) S_ .f32 0x7F800000#32) reducesTo_S64x512_S_d0_1 h_S_
      = Host.reduce (FloatOps.minimumf (F := Ideal) (φ := .f32)) (resRef m c)
        (constant (F := Ideal) S_ .f32 0x7F800000#32) reducesTo_S16384x4096_S_d0_1 h_S_ := by
  show Host.reduce (FloatOps.minimumf (F := Ideal) (φ := .f32)) (minTable m c)
      (constant (F := Ideal) S_ .f32 0x7F800000#32) reducesTo_S64x512_S_d0_1 h_S_ = _
  funext j
  refine eq_of_forall_le_iff fun b => ?_
  rw [Cert.TileBounds.le_hostMinAll _ _ _ _ Cert.FoldBounds.posInf_f32, Cert.TileBounds.le_hostMinAll _ _ _ _ Cert.FoldBounds.posInf_f32]
  constructor
  · intro H i
    obtain ⟨R, Q, rfl⟩ : ∃ (R : Fin 16384) (Q : Fin 4096), i = ix2 R Q := ⟨i 0, i 1, eq_ix2 i⟩
    exact le_trans (H (ix2 ⟨R.val / 2048 * 8, by have := R.isLt; omega⟩ ⟨Q.val / 1024 * 128, by have := Q.isLt; omega⟩))
      (minTable_le m c _ R Q (by show R.val / 2048 = R.val / 2048 * 8 / 8; omega) (by show Q.val / 1024 = Q.val / 1024 * 128 / 128; omega))
  · intro H i
    exact le_minTable m c b (fun R Q => H (ix2 R Q)) i

/-! ## The maximum table -/

/-- An index of the max table is in point t's block iff each coordinate is in the block's range on its axis. -/
theorem mem_maxBlock (t : Fin cfg0.N) (i : S64x512.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v35_2).slice (win0_5.rect t)).set ↔ _
  rw [View.set_slice_whole, Rect.mem_set_unit]
  exact Iff.rfl

/-- Every entry of the max table is in the block of some tile's last point. -/
theorem maxTable_cover (i : S64x512.Idx) :
    ∃ t : Fin cfg0.N, (cfg0.win 5).flush t = true ∧ i ∈ ((cfg0.win 5).blk t).view.set := by
  have hN : cfg0.N = 128 := N_0
  have h0 : (i 0).val < 64 := (i 0).isLt
  have h1 : (i 1).val < 512 := (i 1).isLt
  obtain ⟨t, ht⟩ : ∃ t : Fin cfg0.N, t.val = 16 * ((i 0).val / 8) + 4 * ((i 1).val / 128) + 3 := ⟨⟨_, by omega⟩, rfl⟩
  obtain ⟨-, -, -, -, -, -, -, -, e40, e41, e50, e51⟩ := block_index t
  refine ⟨t, (flush0_5 t).mpr (by omega), ?_⟩
  rw [mem_maxBlock]
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 128 ≤ (i 1).val ∧ (i 1).val < win0_5.index t (1 : Fin 2) * 128 + 128; omega

/-- A table entry is above every entry of the result on its tile. -/
theorem le_maxTable (c : Dev nD) (i : S64x512.Idx) (R : Fin 16384) (Q : Fin 4096)
    (hR : R.val / 2048 = (i 0).val / 8) (hQ : Q.val / 1024 = (i 1).val / 128) :
    resRef m c (ix2 R Q) ≤ maxTable m c i := by
  refine (dats m 0 c).arrAt_forall_of_cover 5
    (fun (i : S64x512.Idx) (v : Ideal .f32) => ∀ (R : Fin 16384) (Q : Fin 4096),
      R.val / 2048 = (i 0).val / 8 → Q.val / 1024 = (i 1).val / 128 → resRef m c (ix2 R Q) ≤ v) ?_ maxTable_cover i R Q hR hQ
  intro t hf y R Q hR hQ
  have h3 : t.val % 4 = 3 := (flush0_5 t).mp hf
  have hN : cfg0.N = 128 := N_0
  have ht : t.val < 128 := hN ▸ t.isLt
  obtain ⟨-, -, -, -, -, -, -, -, -, -, e50, e51⟩ := block_index t
  obtain ⟨a0, b0, rfl⟩ : ∃ (a0 : Fin 8) (b0 : Fin 128), y = ix2 a0 b0 := ⟨y 0, y 1, eq_ix2 y⟩
  have hR' : R.val / 2048 = (win0_5.index t (0 : Fin 2) * 8 + 1 * a0.val) / 8 := hR
  have hQ' : Q.val / 1024 = (win0_5.index t (1 : Fin 2) * 128 + 1 * b0.val) / 128 := hQ
  show @LE.le EReal _ (resRef m c (ix2 R Q)) ((cfg0.win 5).cut (grid0.coords t) ((dats m 0 c).after 5 t) (ix2 a0 b0))
  rw [after0_5, maxBlock_at m c t h3]
  have key := (pay5_le ((outsAt0 m c t.val t.isLt).2.2.2) (iblk m c 2 t) (ix2 a0 b0) (k0_pay5 (F := Ideal) ((outsAt0 m c t.val t.isLt).2.2.2) (iblk m c 2 t) (ix2 a0 b0))).mp le_rfl
    ⟨R.val % 2048, Nat.mod_lt _ (by decide)⟩ ⟨Q.val % 1024, Nat.mod_lt _ (by decide)⟩
  rw [tile_value m c t h3 ⟨R.val % 2048, Nat.mod_lt _ (by decide)⟩ ⟨Q.val % 1024, Nat.mod_lt _ (by decide)⟩ R Q
    (by show R.val = 2048 * (t.val / 16) + R.val % 2048; have := a0.isLt; omega)
    (by show Q.val = 1024 * (t.val / 4 % 4) + Q.val % 1024; have := b0.isLt; omega)] at key
  exact key

/-- An upper bound of the whole result is above every table entry. -/
theorem maxTable_le (c : Dev nD) (b : EReal) (H : ∀ (R : Fin 16384) (Q : Fin 4096), resRef m c (ix2 R Q) ≤ b) (i : S64x512.Idx) :
    maxTable m c i ≤ b := by
  refine (dats m 0 c).arrAt_forall_of_cover 5 (fun (_ : S64x512.Idx) (v : Ideal .f32) => v ≤ b) ?_ maxTable_cover i
  intro t hf y
  have h3 : t.val % 4 = 3 := (flush0_5 t).mp hf
  have hN : cfg0.N = 128 := N_0
  have ht : t.val < 128 := hN ▸ t.isLt
  obtain ⟨a0, b0, rfl⟩ : ∃ (a0 : Fin 8) (b0 : Fin 128), y = ix2 a0 b0 := ⟨y 0, y 1, eq_ix2 y⟩
  show @LE.le EReal _ ((cfg0.win 5).cut (grid0.coords t) ((dats m 0 c).after 5 t) (ix2 a0 b0)) b
  rw [after0_5, maxBlock_at m c t h3]
  refine (pay5_le ((outsAt0 m c t.val t.isLt).2.2.2) (iblk m c 2 t) (ix2 a0 b0) b).mpr fun r q => ?_
  rw [tile_value m c t h3 r q ⟨2048 * (t.val / 16) + r.val, by omega⟩ ⟨1024 * (t.val / 4 % 4) + q.val, by omega⟩ rfl rfl]
  exact H _ _

/-- The maximum over the table is the maximum over the result. -/
theorem maxAll_eq (c : Dev nD) :
    Host.reduce (FloatOps.maximumf (F := Ideal) (φ := .f32)) ((dats m 0 c).arrAt 5 cfg0.N)
        (constant (F := Ideal) S_ .f32 0xFF800000#32) reducesTo_S64x512_S_d0_1 h_S_
      = Host.reduce (FloatOps.maximumf (F := Ideal) (φ := .f32)) (resRef m c)
        (constant (F := Ideal) S_ .f32 0xFF800000#32) reducesTo_S16384x4096_S_d0_1 h_S_ := by
  show Host.reduce (FloatOps.maximumf (F := Ideal) (φ := .f32)) (maxTable m c)
      (constant (F := Ideal) S_ .f32 0xFF800000#32) reducesTo_S64x512_S_d0_1 h_S_ = _
  funext j
  refine eq_of_forall_ge_iff fun b => ?_
  rw [Cert.TileBounds.hostMaxAll_le _ _ _ _ Cert.FoldBounds.negInf_f32, Cert.TileBounds.hostMaxAll_le _ _ _ _ Cert.FoldBounds.negInf_f32]
  constructor
  · intro H i
    obtain ⟨R, Q, rfl⟩ : ∃ (R : Fin 16384) (Q : Fin 4096), i = ix2 R Q := ⟨i 0, i 1, eq_ix2 i⟩
    exact le_trans (le_maxTable m c _ R Q (by show R.val / 2048 = R.val / 2048 * 8 / 8; omega) (by show Q.val / 1024 = Q.val / 1024 * 128 / 128; omega))
      (H (ix2 ⟨R.val / 2048 * 8, by have := R.isLt; omega⟩ ⟨Q.val / 1024 * 128, by have := Q.isLt; omega⟩))
  · intro H i
    exact maxTable_le m c b (fun R Q => H (ix2 R Q)) i

end Cert.KernelIdeal.TileValue

end
-- ==== Proof.RequantTail.lean ====
/-
  The requantization tail, as one function.

  After the integer-domain result  res = (quantized x)·(quantized W)ᵀ + (quantized bias)  is known, both programs
  finish the same way. With  lo = min(min res, 0),  hi = max(max res, 0):
      s  = (hi - lo) / 255                         the requantization scale
      z  = round(-128 - lo / s)                    the requantization zero point
      out = (clip(round(res / s) + z, -128, 127) - z) · (sc · ws · s)
  where ws is the per-channel weight scale (one per output column) and sc the activation scale. The only thing the
  two programs do differently here is HOW they obtain  min res  and  max res; so the tail is stated as a function of
  res, of those two numbers, of ws and of sc, and the reference's last stage is that function of its own
  intermediate stages — by unfolding, nothing is computed.
-/
import proofs.«140985_j16578573762822_2_alg».proof.Proof.Gen.ReferenceIdeal.Read

noncomputable section

namespace Cert.ReferenceIdeal.RefValue

open Cert.ReferenceIdeal Cert.ReferenceIdeal.Gen Cert.ReferenceIdeal.Read Idealize.ShloMosaic

variable {F : FTy → Type} [FloatOps F]

/-- The tail: requantize `res` given its least and greatest entries (before the clamp against 0), then dequantize with
    the combined scale. -/
def requant (res : (⟨S16384x4096, .f32⟩ : BufTy).Contents (Elt F)) (rmin rmax : (⟨S_, .f32⟩ : BufTy).Contents (Elt F))
    (ws : (⟨S4096, .f32⟩ : BufTy).Contents (Elt F)) (sc : (⟨S_, .f32⟩ : BufTy).Contents (Elt F)) :
    (⟨S16384x4096, .f32⟩ : BufTy).Contents (Elt F) :=
  let lo : (⟨S_, .f32⟩ : BufTy).Contents (Elt F) := minimumf rmin (constant S_ .f32 0x00000000#32)
  let hi : (⟨S_, .f32⟩ : BufTy).Contents (Elt F) := maximumf rmax (constant S_ .f32 0x00000000#32)
  let s : (⟨S_, .f32⟩ : BufTy).Contents (Elt F) := Host.divf (subf hi lo) (constant S_ .f32 0x437F0000#32)
  let z : (⟨S_, .f32⟩ : BufTy).Contents (Elt F) := Host.roundeven (subf (constant S_ .f32 0xC3000000#32) (Host.divf lo s))
  mulf
    (subf
      (minimumf (broadcastInDim S16384x4096 ![] bcast_S_S16384x4096 (id (constant S_ .f32 0x42FE0000#32)))
        (maximumf (broadcastInDim S16384x4096 ![] bcast_S_S16384x4096 (id (constant S_ .f32 0xC3000000#32)))
          (addf (Host.roundeven (Host.divf res (broadcastInDim S16384x4096 ![] bcast_S_S16384x4096 s)))
            (broadcastInDim S16384x4096 ![] bcast_S_S16384x4096 z))))
      (broadcastInDim S16384x4096 ![] bcast_S_S16384x4096 z))
    (broadcastInDim S16384x4096 ![0, 1] bcast_S1x4096_S16384x4096_0_1
      (mulf (mulf (broadcastInDim S1x4096 ![] bcast_S_S1x4096 sc) (broadcastInDim S1x4096 ![1] bcast_S4096_S1x4096_1 ws))
        (broadcastInDim S1x4096 ![] bcast_S_S1x4096 s)))

/-- The reference's result is the tail of its integer-domain result, of that result's global minimum and maximum, and
    of its two scales. -/
theorem val_main_v58_requant (x0 : (⟨S16384x4096, .f32⟩ : BufTy).Contents (Elt F)) (x1 : (⟨S4096x4096, .f32⟩ : BufTy).Contents (Elt F))
    (x2 : (⟨S4096, .f32⟩ : BufTy).Contents (Elt F)) :
    val_main_v58 (F := F) x0 x1 x2
      = requant (val_main_v34 (F := F) x0 x1 x2) (val_main_v35 (F := F) x0 x1 x2) (val_main_v37 (F := F) x0 x1 x2)
          (val_main_v3 (F := F) x1) (val_main_v14 (F := F) x0) := rfl

end Cert.ReferenceIdeal.RefValue

end
-- ==== Proof.KernelTail.lean ====
/-
  What the host code after the region computes, as the requantization tail of what the region left.

  After the region the kernel's host code reads the three arrays the region wrote — the integer-domain result and
  the two tables of per-tile extremes — and the two scales computed before the region, and performs the
  requantization: the minimum of the minimum table and the maximum of the maximum table stand where the reference
  has the minimum and maximum of the result itself. Read off the list of host operations, the program's result is the
  tail function of (result array, min of the min table, max of the max table, weight scale, activation scale). No
  arithmetic is involved. Stated at any float instance.
-/
import proofs.«140985_j16578573762822_2_alg».proof.Proof.Gen.KernelIdeal.Frame
import proofs.«140985_j16578573762822_2_alg».proof.Proof.RequantTail
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 8000000 in
/-- The program's result after the host tail. -/
theorem tail_eq (c : Dev nD) :
    Pipeline.afterTail₀ cfgs (dats m) 0 (V0 m) [hostOps1, hostOps1_1, hostOps1_2, hostOps1_3, hostOps1_4, hostOps1_5, hostOps1_6] c main_v59
      = Cert.ReferenceIdeal.RefValue.requant (F := F) ((dats m 0 c).arrAt 3 cfg0.N)
          (Host.reduce FloatOps.minimumf ((dats m 0 c).arrAt 4 cfg0.N) (constant S_ .f32 0x7F800000#32) reducesTo_S64x512_S_d0_1 h_S_)
          (Host.reduce FloatOps.maximumf ((dats m 0 c).arrAt 5 cfg0.N) (constant S_ .f32 0xFF800000#32) reducesTo_S64x512_S_d0_1 h_S_)
          (V m c main_v3) (V m c main_v14) := by
  have e3 : Pipeline.withArrays (cfgs 0).spec c (V0 m c) (fun w => (dats m 0 c).arrAt w (cfgs 0).N) (Proc.devRef .tc main_v35_0) = (dats m 0 c).arrAt 3 cfg0.N :=
    Pipeline.withArrays_arr spec0 launch0.win.arr_inj c _ _ 3
  have e4 : Pipeline.withArrays (cfgs 0).spec c (V0 m c) (fun w => (dats m 0 c).arrAt w (cfgs 0).N) (Proc.devRef .tc main_v35_1) = (dats m 0 c).arrAt 4 cfg0.N :=
    Pipeline.withArrays_arr spec0 launch0.win.arr_inj c _ _ 4
  have e5 : Pipeline.withArrays (cfgs 0).spec c (V0 m c) (fun w => (dats m 0 c).arrAt w (cfgs 0).N) (Proc.devRef .tc main_v35_2) = (dats m 0 c).arrAt 5 cfg0.N :=
    Pipeline.withArrays_arr spec0 launch0.win.arr_inj c _ _ 5
  have ews : Pipeline.withArrays (cfgs 0).spec c (V0 m c) (fun w => (dats m 0 c).arrAt w (cfgs 0).N) (Proc.devRef .tc main_v3) = V m c main_v3 :=
    Pipeline.withArrays_of_ne _ c (V0 m c) _ main_v3 (by exact (by decide : ∀ w, Pipeline.arrRef spec0 w ≠ main_v3))
  have esc : Pipeline.withArrays (cfgs 0).spec c (V0 m c) (fun w => (dats m 0 c).arrAt w (cfgs 0).N) (Proc.devRef .tc main_v14) = V m c main_v14 :=
    Pipeline.withArrays_of_ne _ c (V0 m c) _ main_v14 (by exact (by decide : ∀ w, Pipeline.arrRef spec0 w ≠ main_v14))
  unfold Pipeline.afterTail₀
  simp only [hostOps1, hostOps1_1, hostOps1_2, hostOps1_3, hostOps1_4, hostOps1_5, hostOps1_6, List.flatten_cons, List.flatten_nil, List.append_nil, List.cons_append, List.nil_append]
  after_results_simp
  rw [e3, e4, e5, ews, esc]
  rfl

end Cert.KernelIdeal.HostValue

end
-- ==== Proof.KernelValue.lean ====
/-
  The kernel's run, with its result named.

  Putting the pieces together at the exact instance: the host tail is the requantization tail of (result array, min of
  the min table, max of the max table, weight scale, activation scale); the result array is the reference's
  integer-domain result; the two table extremes are that result's global minimum and maximum; the two scales are the
  reference's. So the program's result is the requantization tail of the reference's own intermediate stages, which
  is the reference's last stage. The run itself — every weakly fair execution terminates, nothing faults, the argument
  arrays end unchanged — is the generated frame run; only its post is re-read here.
-/
import proofs.«140985_j16578573762822_2_alg».proof.Proof.ResultArrays
import proofs.«140985_j16578573762822_2_alg».proof.Proof.KernelTail

set_option maxRecDepth 16384

noncomputable section

namespace Cert.KernelIdeal.RunValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The program's result after the host tail is the reference's last stage of the same argument arrays. -/
theorem result_eq (c : Dev nD) :
    Pipeline.afterTail₀ cfgs (dats m) 0 (V0 m) [hostOps1, hostOps1_1, hostOps1_2, hostOps1_3, hostOps1_4, hostOps1_5, hostOps1_6] c main_v59
      = Cert.ReferenceIdeal.Read.val_main_v58 (F := Ideal) (m ((c.tc : Thread nD τ).loc main_arg0)) (m ((c.tc : Thread nD τ).loc main_arg1)) (m ((c.tc : Thread nD τ).loc main_arg2)) := by
  rw [Cert.KernelIdeal.HostValue.tail_eq m c, Cert.KernelIdeal.TileValue.result_array m c, Cert.KernelIdeal.TileValue.minAll_eq m c,
    Cert.KernelIdeal.TileValue.maxAll_eq m c, Cert.KernelIdeal.HostValue.wscale_eq m c, Cert.KernelIdeal.HostValue.ascale_eq m c]
  exact (Cert.ReferenceIdeal.RefValue.val_main_v58_requant _ _ _).symm

/-- Every weakly fair execution of the idealized kernel program terminates, without a fault, with its result at the
    reference's last stage of the argument arrays and the argument arrays unchanged. -/
theorem run : θ_run defs (onTc (τ := τ) (main (F := Ideal))) ⟨m, fun _ => 0, ρ⟩ fun r => ∀ c : Dev nD,
      r.2.mem ((c.tc : Thread nD τ).loc main_v59) = Cert.ReferenceIdeal.Read.val_main_v58 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v59 (Pipeline.mem_restRefs_of main_v59 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.lean ====
/-
  A quantized linear layer, kernel against reference, over the extended reals.

  Both programs quantize the activations x (asymmetric, per tensor), the weights W (symmetric, per output channel)
  and the bias into an integer domain, form  res = qx · qwᵀ + qbias , find  lo = min(min res, 0)  and
  hi = max(max res, 0) , and requantize and dequantize:
      out = (clip(round(res / s) + z, -128, 127) - z) · (sc · ws · s),   s = (hi - lo) / 255,   z = round(-128 - lo / s).
  The quantization before the product and the requantization after it are the same host operations on the same
  literals in both programs. They differ in two places only.
    * The product. The kernel walks an 8 × 4 × 4 grid of (row tile, column tile, contraction block), keeps a
      [2048, 1024] accumulator across the four contraction blocks of a tile — reset to zero at the first, a
      [2048, 1024] × [1024, 1024] block product added at each — and adds the bias at the last. The reference contracts
      all 4096 positions at once. On the extended reals + is commutative and associative (it only fails to cancel), so
      four quarter sums added to zero in order are the whole sum: the two results agree entry by entry, with no
      finiteness assumption.
    * The extremes. The kernel records each tile's least and greatest entry in two small tables and takes the minimum
      (maximum) of the tables; the reference takes the minimum (maximum) of the whole result. A tile's least entry is a
      lower bound of the tile, and a lower bound of everything is below every tile's least entry, so the tables and the
      result have the same infimum; dually the same supremum. Only the order is used.
  A change of float format (the bf16 operands of the product) is the identity at the exact instance, and the ideal
  pass rewrote nothing, so the kernel's idealization is the program's own text read at the exact instance.
-/
import proofs.«140985_j16578573762822_2_alg».proof.Defs
import proofs.«140985_j16578573762822_2_alg».proof.Proof.Gen.Kernel
import proofs.«140985_j16578573762822_2_alg».proof.Proof.Gen.Kernel.Skeleton
import proofs.«140985_j16578573762822_2_alg».proof.Proof.Gen.Kernel.Launch
import proofs.«140985_j16578573762822_2_alg».proof.Proof.Gen.Kernel.Points
import proofs.«140985_j16578573762822_2_alg».proof.Proof.Gen.Kernel.Frame
import proofs.«140985_j16578573762822_2_alg».proof.Proof.Gen.KernelIdeal
import proofs.«140985_j16578573762822_2_alg».proof.Proof.Gen.KernelIdeal.Skeleton
import proofs.«140985_j16578573762822_2_alg».proof.Proof.Gen.KernelIdeal.Launch
import proofs.«140985_j16578573762822_2_alg».proof.Proof.Gen.KernelIdeal.Points
import proofs.«140985_j16578573762822_2_alg».proof.Proof.Gen.KernelIdeal.Frame
import proofs.«140985_j16578573762822_2_alg».proof.Proof.Gen.ReferenceIdeal
import proofs.«140985_j16578573762822_2_alg».proof.Proof.Gen.Pre_finite_inputs
import proofs.«140985_j16578573762822_2_alg».proof.Proof.Gen.ReferenceIdeal.Run
import proofs.«140985_j16578573762822_2_alg».proof.Proof.Gen.ReferenceIdeal.Read
import proofs.«140985_j16578573762822_2_alg».proof.Proof.KernelValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the reference's last stage of those arguments:
    the kernel by the value read off its run, the reference by its own run. -/
theorem algebraic : Cert.algebraic_KernelIdeal_ReferenceIdeal := by
  intro m ρ m' ρ' _ hagree
  refine ⟨fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
